-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x26x16 : Shape := ⟨3, ![1024, 26, 16]⟩
abbrev S1024x100000 : Shape := ⟨2, ![1024, 100000]⟩
abbrev S100000x16 : Shape := ⟨2, ![100000, 16]⟩
abbrev S_ : Shape := ⟨0, ![]⟩

class Facts : Prop where
  bcast_S_S1024x26x16 : S_.BroadcastsInDim S1024x26x16 (![] : Fin 0 → Fin S1024x26x16.rank)
  reducesTo_S1024x26x16_S_d0_1_2 : S1024x26x16.ReducesTo [0, 1, 2] S_
  h_S_ : 0 < S_.numel
  bcast_S_S1024x100000 : S_.BroadcastsInDim S1024x100000 (![] : Fin 0 → Fin S1024x100000.rank)
  reducesTo_S1024x100000_S_d0_1 : S1024x100000.ReducesTo [0, 1] S_
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S1024x26x16 .f32) (main_arg1 : FVec F S1024x100000 .f32) (main_arg2 : FVec F S100000x16 .f32) : IVec S_ 1 :=
  let main_v0 : FVec F S1024x26x16 .f32 := Host.absf main_arg0
  let main_cst : FVec F S_ .f32 := constant S_ .f32 0x7F800000#32
  let main_v1 : FVec F S1024x26x16 .f32 := broadcastInDim S1024x26x16 ![] bcast_S_S1024x26x16 main_cst
  let main_v2 : IVec S1024x26x16 1 := cmpf .olt main_v0 main_v1
  let main_c : IVec S_ 1 := constantI S_ 1 1#1
  let main_v3 : IVec S_ 1 := (fun x v => Host.reduce IntOp.andi x v reducesTo_S1024x26x16_S_d0_1_2 h_S_) main_v2 main_c
  let main_v4 : FVec F S1024x100000 .f32 := Host.absf main_arg1
  let main_cst_0 : FVec F S_ .f32 := constant S_ .f32 0x7F800000#32
  let main_v5 : FVec F S1024x100000 .f32 := broadcastInDim S1024x100000 ![] bcast_S_S1024x100000 main_cst_0
  let main_v6 : IVec S1024x100000 1 := cmpf .olt main_v4 main_v5
  let main_c_1 : IVec S_ 1 := constantI S_ 1 1#1
  let main_v7 : IVec S_ 1 := (fun x v => Host.reduce IntOp.andi x v reducesTo_S1024x100000_S_d0_1 h_S_) main_v6 main_c_1
  let main_v8 : IVec S_ 1 := andi main_v3 main_v7
  let main_v9 : FVec F S100000x16 .f32 := Host.absf main_arg2
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  main_v13
-- ==== Kernel.lean ====
abbrev S1024x26x16 : Shape := ⟨3, ![1024, 26, 16]⟩
abbrev S1024x100000 : Shape := ⟨2, ![1024, 100000]⟩
abbrev S100000x16 : Shape := ⟨2, ![100000, 16]⟩
abbrev S100000x1024 : Shape := ⟨2, ![100000, 1024]⟩
abbrev S16x100000 : Shape := ⟨2, ![16, 100000]⟩
abbrev S26x16x1024 : Shape := ⟨3, ![26, 16, 1024]⟩
abbrev S26x1024 : Shape := ⟨2, ![26, 1024]⟩
abbrev S2048x1024 : Shape := ⟨2, ![2048, 1024]⟩
abbrev S16x2048 : Shape := ⟨2, ![16, 2048]⟩
abbrev S16x1024 : Shape := ⟨2, ![16, 1024]⟩
abbrev S16x1696 : Shape := ⟨2, ![16, 1696]⟩
abbrev S1696x1024 : Shape := ⟨2, ![1696, 1024]⟩
abbrev S1x16x1024 : Shape := ⟨3, ![1, 16, 1024]⟩
abbrev S1024x26 : Shape := ⟨2, ![1024, 26]⟩

abbrev nBuf : Space → Nat
  | .hbm => 8
  | .vmem => 7
  | .smem => 0
  | _ => 0

abbrev bufTy : (tb : Table) → Fin (tcTables nBuf tb) → BufTy
  | .hbm, ⟨0, _⟩ => ⟨S1024x26x16, .f32⟩
  | .hbm, ⟨1, _⟩ => ⟨S1024x100000, .f32⟩
  | .hbm, ⟨2, _⟩ => ⟨S100000x16, .f32⟩
  | .hbm, ⟨3, _⟩ => ⟨S100000x1024, .f32⟩
  | .hbm, ⟨4, _⟩ => ⟨S16x100000, .f32⟩
  | .hbm, ⟨5, _⟩ => ⟨S26x16x1024, .f32⟩
  | .hbm, ⟨6, _⟩ => ⟨S26x1024, .f32⟩
  | .hbm, ⟨7, _⟩ => ⟨S1024x26, .f32⟩
  | .local _ .vmem, ⟨0, _⟩ => ⟨S26x16x1024, .f32⟩
  | .local _ .vmem, ⟨1, _⟩ => ⟨S2048x1024, .f32⟩
  | .local _ .vmem, ⟨2, _⟩ => ⟨S2048x1024, .f32⟩
  | .local _ .vmem, ⟨3, _⟩ => ⟨S16x2048, .f32⟩
  | .local _ .vmem, ⟨4, _⟩ => ⟨S16x2048, .f32⟩
  | .local _ .vmem, ⟨5, _⟩ => ⟨S26x1024, .f32⟩
  | .local _ .vmem, ⟨6, _⟩ => ⟨S16x1024, .f32⟩
  | _, _ => ⟨S1024x26x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![49], ![false]⟩

def k0_cond3 (i : grid0.Coords) : BitVec 1 :=
  let arg0 : BitVec 32 := BitVec.ofNat 32 (i 0).val
  let c48_i32_2 : BitVec 32 := 48#32
  let v6 : BitVec 1 := Scalar.cmpi .eq arg0 c48_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S26x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S26x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S1024x100000_S100000x1024_1_0 : S1024x100000.Transposes [1, 0] S100000x1024
  transposes_S100000x16_S16x100000_1_0 : S100000x16.Transposes [1, 0] S16x100000
  transposes_S1024x26x16_S26x16x1024_1_2_0 : S1024x26x16.Transposes [1, 2, 0] S26x16x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S16x2048_S16x1696_0_0 : ∀ a, (![0, 0] : Fin 2 → Nat) a + S16x1696.size a ≤ S16x2048.size a
  h_S16x1696 : 0 < S16x1696.numel
  shapeCasts_S16x1696_S16x1696 : S16x1696.ShapeCasts S16x1696
  inb_S2048x1024_S1696x1024_0_0 : ∀ a, (![0, 0] : Fin 2 → Nat) a + S1696x1024.size a ≤ S2048x1024.size a
  h_S1696x1024 : 0 < S1696x1024.numel
  shapeCasts_S1696x1024_S1696x1024 : S1696x1024.ShapeCasts S1696x1024
  inb_S26x16x1024_S26x16x1024_0_0_0 : ∀ a, (![0, 0, 0] : Fin 3 → Nat) a + S26x16x1024.size a ≤ S26x16x1024.size a
  h_S26x16x1024 : 0 < S26x16x1024.numel
  shapeCasts_S26x16x1024_S26x16x1024 : S26x16x1024.ShapeCasts S26x16x1024
  shapeCasts_S16x1024_S1x16x1024 : S16x1024.ShapeCasts S1x16x1024
  broadcasts_S1x16x1024_S26x16x1024 : S1x16x1024.Broadcasts S26x16x1024
  reduces_S26x16x1024_S26x1024 : S26x16x1024.Reduces [1] S26x1024
  inb_S26x1024_S26x1024_0_0 : ∀ a, (![0, 0] : Fin 2 → Nat) a + S26x1024.size a ≤ S26x1024.size a
  h_S26x1024 : 0 < S26x1024.numel
  transposes_S26x1024_S1024x26_1_0 : S26x1024.Transposes [1, 0] S1024x26
  dot_S16x2048_S2048x1024_S16x1024_1_0_0_1_n_n_wf : DotDims.WF S16x2048 S2048x1024 S16x1024 [1] [0] [0] [1] [] []
  dot_S16x1696_S1696x1024_S16x1024_1_0_0_1_n_n_wf : DotDims.WF S16x1696 S1696x1024 S16x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S26x16x1024.size a ≤ S26x16x1024.size a
  hwx0_0 : ∀ i : grid0.Coords, EltTy.bits .f32 = 32 ∨ (Rect.block (s := S26x16x1024) S26x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S100000x1024.size a
  hwx0_1 : ∀ i : grid0.Coords, EltTy.bits .f32 = 32 ∨ (Rect.unit (s := S100000x1024) (fun a => cc0_transform_1 i a * S2048x1024.size a) (fun a => (Pipeline.Clip.of (cc0_transform_1 i a) (S2048x1024.size a) (S100000x1024.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S100000x1024.size a)).extent (S2048x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16x2048.size a < S16x100000.size a
  hwx0_2 : ∀ i : grid0.Coords, EltTy.bits .f32 = 32 ∨ (Rect.unit (s := S16x100000) (fun a => cc0_transform_2 i a * S16x2048.size a) (fun a => (Pipeline.Clip.of (cc0_transform_2 i a) (S16x2048.size a) (S16x100000.size a)).extent (S16x2048.size a)) fun a => Pipeline.Clip.inb (Pipeline.Clip.ok_of (hstart0_2 i a))).WholeWords (EltTy.packing .f32)
  hwxs0_2 : ∀ i : grid0.Coords, EltTy.bits .f32 = 32 ∨ (Rect.unit (s := S16x2048) (fun _ => 0) (fun a => (Pipeline.Clip.of (cc0_transform_2 i a) (S16x2048.size a) (S16x100000.size a)).extent (S16x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S26x1024.size a ≤ S26x1024.size a
  hwx0_3 : ∀ i : grid0.Coords, EltTy.bits .f32 = 32 ∨ (Rect.block (s := S26x1024) S26x1024.size (cc0_transform_3 i) (hinb0_3 i)).WholeWords (EltTy.packing .f32)

variable [Facts₀]

def dot_S16x2048_S2048x1024_S16x1024_1_0_0_1_n_n : DotDims S16x2048 S2048x1024 S16x1024 where
  lhsContracting := [1]
  rhsContracting := [0]
  lhsNonContracting := [0]
  rhsNonContracting := [1]
  lhsBatch := []
  rhsBatch := []
  wf := dot_S16x2048_S2048x1024_S16x1024_1_0_0_1_n_n_wf
def dot_S16x1696_S1696x1024_S16x1024_1_0_0_1_n_n : DotDims S16x1696 S1696x1024 S16x1024 where
  lhsContracting := [1]
  rhsContracting := [0]
  lhsNonContracting := [0]
  rhsNonContracting := [1]
  lhsBatch := []
  rhsBatch := []
  wf := dot_S16x1696_S1696x1024_S16x1024_1_0_0_1_n_n_wf

abbrev win0_0 : Pipeline.Window sig grid0 :=
  Pipeline.Window.ofSpec (Memref.whole main_v2) S26x16x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S2048x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S16x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v3) S26x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S1024x26x16 : Shape := ⟨3, ![1024, 26, 16]⟩
abbrev S1024x100000 : Shape := ⟨2, ![1024, 100000]⟩
abbrev S100000x16 : Shape := ⟨2, ![100000, 16]⟩
abbrev S1024x16 : Shape := ⟨2, ![1024, 16]⟩
abbrev S1024x16x1 : Shape := ⟨3, ![1024, 16, 1]⟩
abbrev S1024x26x1 : Shape := ⟨3, ![1024, 26, 1]⟩
abbrev S1024x26 : Shape := ⟨2, ![1024, 26]⟩

abbrev nBuf : Space → Nat
  | .hbm => 7
  | .vmem => 0
  | .smem => 0
  | _ => 0

abbrev bufTy : (tb : Table) → Fin (tcTables nBuf tb) → BufTy
  | .hbm, ⟨0, _⟩ => ⟨S1024x26x16, .f32⟩
  | .hbm, ⟨1, _⟩ => ⟨S1024x100000, .f32⟩
  | .hbm, ⟨2, _⟩ => ⟨S100000x16, .f32⟩
  | .hbm, ⟨3, _⟩ => ⟨S1024x16, .f32⟩
  | .hbm, ⟨4, _⟩ => ⟨S1024x16x1, .f32⟩
  | .hbm, ⟨5, _⟩ => ⟨S1024x26x1, .f32⟩
  | .hbm, ⟨6, _⟩ => ⟨S1024x26, .f32⟩
  | _, _ => ⟨S1024x26x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S1024x16_S1024x16x1 : S1024x16.ShapeCasts S1024x16x1
  shapeCasts_S1024x26x1_S1024x26 : S1024x26x1.ShapeCasts S1024x26
  dot_S1024x100000_S100000x16_S1024x16_1_0_0_1_n_n_wf : DotDims.WF S1024x100000 S100000x16 S1024x16 [1] [0] [0] [1] [] []
  dot_S1024x26x16_S1024x16x1_S1024x26x1_2_1_1_2_0_0_wf : DotDims.WF S1024x26x16 S1024x16x1 S1024x26x1 [2] [1] [1] [2] [0] [0]

variable [Facts₀]

def dot_S1024x100000_S100000x16_S1024x16_1_0_0_1_n_n : DotDims S1024x100000 S100000x16 S1024x16 where
  lhsContracting := [1]
  rhsContracting := [0]
  lhsNonContracting := [0]
  rhsNonContracting := [1]
  lhsBatch := []
  rhsBatch := []
  wf := dot_S1024x100000_S100000x16_S1024x16_1_0_0_1_n_n_wf
def dot_S1024x26x16_S1024x16x1_S1024x26x1_2_1_1_2_0_0 : DotDims S1024x26x16 S1024x16x1 S1024x26x1 where
  lhsContracting := [2]
  rhsContracting := [1]
  lhsNonContracting := [1]
  rhsNonContracting := [2]
  lhsBatch := [0]
  rhsBatch := [0]
  wf := dot_S1024x26x16_S1024x16x1_S1024x26x1_2_1_1_2_0_0_wf

class Facts : Prop extends Facts₀ where

variable [Facts]
-- ==== Proof.SweepRunsBits.lean ====
/-
  The kernel body at its three kinds of grid point, run symbolically on whole staging buffers.

  The grid sweeps 49 blocks of users. At the FIRST block the accumulator (a 16 × 1024 scratch) is reset to zero and
  the block's product `coefᵀ_block · onehotᵀ_block` added to it; at an INNER block (1 … 47) the product is added to
  what the block before left; at the LAST block (48) only the leading 1696 users of the two staging buffers are
  contracted (the rest of the block lies past the arrays' end), the product is added, and the scores
  `out[i, n] = Σ_p x[i, p, n] · acc[p, n]` are stored. Each run returns the list of pieces its stores leave in the
  accumulator (and, at the last block, in the result's buffer) together with the proof that the body runs to a
  continuation that is handed exactly those pieces.
-/
import proofs.«154908_g48799418417398_cont_8to1_c_1139_22_alg».proof.Proof.Gen.Kernel.Frame
import proofs.«154908_g48799418417398_cont_8to1_c_1139_22_alg».proof.Proof.Gen.Kernel.Skeleton
import Idealize.ShloMosaic.Lib.Pipeline.FrameBody
import Idealize.ShloMosaic.Lib.Tactic

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Which kind of point: the body's three conditions, decided over the grid -/

/-- "This is block 0": the condition under which the accumulator is reset. -/
abbrev atFirst (i : grid0.Coords) : Prop :=
  (Scalar.cmpi .ne (Scalar.extui (Scalar.cmpi .eq (BitVec.ofNat 32 (i 0).val) 0#32)) 0#32) = 1#1
/-- "This block lies wholly inside the arrays" (block index below 48): a full 2048-user product is added. -/
abbrev atInner (i : grid0.Coords) : Prop :=
  (Scalar.cmpi .ne (Scalar.extui (Scalar.cmpi .slt (BitVec.ofNat 32 (i 0).val) 48#32)) 0#32) = 1#1
/-- "This is block 48", the one that overhangs the arrays: the 1696-user tail is added and the scores stored. -/
abbrev atLast (i : grid0.Coords) : Prop := k0_cond3 i = 1#1

theorem atFirst_iff : ∀ t : Fin cfg0.N, atFirst (grid0.coords t) ↔ t.val = 0 :=
  (by decide +kernel : ∀ t : Fin grid0.N, atFirst (grid0.coords t) ↔ t.val = 0)
theorem atInner_iff : ∀ t : Fin cfg0.N, atInner (grid0.coords t) ↔ t.val < 48 :=
  (by decide +kernel : ∀ t : Fin grid0.N, atInner (grid0.coords t) ↔ t.val < 48)
theorem atLast_iff : ∀ t : Fin cfg0.N, atLast (grid0.coords t) ↔ t.val = 48 :=
  (by decide +kernel : ∀ t : Fin grid0.N, atLast (grid0.coords t) ↔ t.val = 48)

/-! ## The three runs -/

set_option maxHeartbeats 1000000 in
/-- Block 0. The accumulator arrives at anything; the features' and the result's buffers are not touched. -/
noncomputable def runFirst (c : Dev nD) (i : grid0.Coords)
    (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : atFirst i) (hB : atInner i) (hC : ¬atLast i)
    (x1 : Vec F S2048x1024 .f32) (x2 : Vec F S16x2048 .f32) :
    { LS : List (View.Piece (Elt F) S16x1024 .f32) //
      ∀ (x0 : Vec F S26x16x1024 .f32) (xo : Vec F S26x1024 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__coef_kernel i arg1 harg1 arg2 harg2 arg3 harg3 arg4 harg4 arg5 harg5) K } := by
  refine ⟨?_, fun x0 xo E K => ?run⟩
  case run =>
    simp only [cc0__coef_kernel_eq_skeleton]; unfold cc0__coef_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg1.eq_unread hf0; obtain rfl := harg2.eq_unread hf1; obtain rfl := harg3.eq_unread hf2
    obtain rfl := harg4.eq_unread hf3
    sl_exec (disch := first | exact hA | exact hB | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 1000000 in
/-- Blocks 1 … 47. The accumulator arrives at what the block before left, `xs`. -/
noncomputable def runInner (c : Dev nD) (i : grid0.Coords)
    (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : atInner i) (hC : ¬atLast i)
    (x1 : Vec F S2048x1024 .f32) (x2 : Vec F S16x2048 .f32) (xs : Vec F S16x1024 .f32) :
    { LS : List (View.Piece (Elt F) S16x1024 .f32) //
      ∀ (x0 : Vec F S26x16x1024 .f32) (xo : Vec F S26x1024 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare xs
            ∗ (iprop(owns (c : Thread nD τ) arg1 fullShare x0 ∗ owns (c : Thread nD τ) arg2 fullShare x1 ∗ owns (c : Thread nD τ) arg3 fullShare x2
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__coef_kernel i arg1 harg1 arg2 harg2 arg3 harg3 arg4 harg4 arg5 harg5) K } := by
  refine ⟨?_, fun x0 xo E K => ?run⟩
  case run =>
    simp only [cc0__coef_kernel_eq_skeleton]; unfold cc0__coef_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hfs
    sl_exec (disch := first | exact hA | exact hB | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 1000000 in
/-- Block 48. The accumulator arrives at `xs`; the result's buffer arrives at anything and leaves with the scores. -/
noncomputable def runLast (c : Dev nD) (i : grid0.Coords)
    (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i)
    (x0 : Vec F S26x16x1024 .f32) (x1 : Vec F S2048x1024 .f32) (x2 : Vec F S16x2048 .f32) (xs : Vec F S16x1024 .f32) :
    Σ' (LO : List (View.Piece (Elt F) S26x1024 .f32)), { LS : List (View.Piece (Elt F) S16x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__coef_kernel i arg1 harg1 arg2 harg2 arg3 harg3 arg4 harg4 arg5 harg5) K } := by
  refine ⟨?_, ?_, fun E K => ?run⟩
  case run =>
    simp only [cc0__coef_kernel_eq_skeleton]; unfold cc0__coef_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2
    obtain rfl := harg5.eq_unread hfs
    sl_exec (disch := first | exact hA | exact hB | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.Kernel.Sweep

end
-- ==== Proof.SweepPiecesBits.lean ====
/-
  What each kind of point leaves behind, as a payload term.

  The runs return lists of pieces (a rectangle and the value stored through it). Every store of this body is
  through the whole buffer, so the last piece alone decides the contents: the accumulator is left at the
  block's product added to what it held (zero at block 0, where it was just reset), and at the last block the
  result's buffer at the contraction of the features with the finished accumulator. The last block reads only
  the leading 1696 users of its two staging buffers.
-/
import proofs.«154908_g48799418417398_cont_8to1_c_1139_22_alg».proof.Proof.SweepRunsBits
import Idealize.ShloMosaic.Lib.Pipeline.Value

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator as a whole buffer, and the view through which its contents are stated. -/
abbrev accM : Memref sig .tc .vmem S16x1024 .f32 := Memref.whole cc0_scratch0
abbrev accV : View sig .tc .vmem S16x1024 .f32 := (accM).view
/-- One staging buffer of the result, through which its contents are stated (which one does not matter). -/
abbrev resV : View sig .tc .vmem S26x1024 .f32 := (Memref.whole cc0_stg3_0 : Memref sig .tc .vmem S26x1024 .f32).view

/-- The leading 1696 columns of a staged `coefᵀ` block, and the leading 1696 rows of a staged `onehotᵀ` block:
    the users of the last block that exist. -/
abbrev headCf (x2 : Vec F S16x2048 .f32) : Vec F S16x1696 .f32 :=
  View.ld x2 (Rect.unit (s := S16x2048) ![0, 0] S16x1696.size inb_S16x2048_S16x1696_0_0)
abbrev headOh (x1 : Vec F S2048x1024 .f32) : Vec F S1696x1024 .f32 :=
  View.ld x1 (Rect.unit (s := S2048x1024) ![0, 0] S1696x1024.size inb_S2048x1024_S1696x1024_0_0)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## Block 0 -/

theorem coverFirst (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : atFirst i) (hB : atInner i) (hC : ¬atLast i) (x1 : Vec F S2048x1024 .f32) (x2 : Vec F S16x2048 .f32) (y : S16x1024.Idx) :
    ∃ pc ∈ (runFirst (F := F) c i arg1 harg1 arg2 harg2 arg3 harg3 arg4 harg4 arg5 harg5 hA hB hC x1 x2).1, y ∈ pc.1.set :=
  View.cover_of_tiledL _ S16x1024.size (by sl_kernel_rfl) y

/-- What block 0 leaves in the accumulator. -/
def leftFirst (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : atFirst i) (hB : atInner i) (hC : ¬atLast i) (x1 : Vec F S2048x1024 .f32) (x2 : Vec F S16x2048 .f32) : Vec F S16x1024 .f32 :=
  accV.read (Elt F) (accV.writes (Elt F) accV.junk (runFirst (F := F) c i arg1 harg1 arg2 harg2 arg3 harg3 arg4 harg4 arg5 harg5 hA hB hC x1 x2).1)

/-- It is the block's product added to the zero it was reset to. -/
theorem leftFirst_eq (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : atFirst i) (hB : atInner i) (hC : ¬atLast i) (x1 : Vec F S2048x1024 .f32) (x2 : Vec F S16x2048 .f32) :
    leftFirst (F := F) c i arg1 harg1 arg2 harg2 arg3 harg3 arg4 harg4 arg5 harg5 hA hB hC x1 x2 = k0_pay2 (k0_pay1 (F := F)) x2 x1 := by
  unfold leftFirst
  rw [View.read_writes_eq_canon _ _ _ (coverFirst c i arg1 harg1 arg2 harg2 arg3 harg3 arg4 harg4 arg5 harg5 hA hB hC x1 x2)]
  unfold runFirst
  dsimp only
  sl_unfold_run_names
  rw [View.canon_cons_unit_zero zeros2]
  simp only [View.readAt_eq_ld, Memref.IsWhole.read_unread, View.ld_unit_zero (S := S16x2048) zeros2,
    View.ld_unit_zero (S := S2048x1024) zeros2, View.readCov_unit_zero (S := S16x1024) _ zeros2]

/-! ## Blocks 1 … 47 -/

theorem coverInner (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : atInner i) (hC : ¬atLast i) (x1 : Vec F S2048x1024 .f32) (x2 : Vec F S16x2048 .f32) (xs : Vec F S16x1024 .f32)
    (y : S16x1024.Idx) :
    ∃ pc ∈ (runInner (F := F) c i arg1 harg1 arg2 harg2 arg3 harg3 arg4 harg4 arg5 harg5 hA hB hC x1 x2 xs).1, y ∈ pc.1.set :=
  View.cover_of_tiledL _ S16x1024.size (by sl_kernel_rfl) y

/-- What an inner block leaves in the accumulator. -/
def leftInner (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : atInner i) (hC : ¬atLast i) (x1 : Vec F S2048x1024 .f32) (x2 : Vec F S16x2048 .f32) (xs : Vec F S16x1024 .f32) :
    Vec F S16x1024 .f32 :=
  accV.read (Elt F) (accV.writes (Elt F) accV.junk (runInner (F := F) c i arg1 harg1 arg2 harg2 arg3 harg3 arg4 harg4 arg5 harg5 hA hB hC x1 x2 xs).1)

/-- It is the block's product added to what the block before left. -/
theorem leftInner_eq (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : atInner i) (hC : ¬atLast i) (x1 : Vec F S2048x1024 .f32) (x2 : Vec F S16x2048 .f32) (xs : Vec F S16x1024 .f32) :
    leftInner (F := F) c i arg1 harg1 arg2 harg2 arg3 harg3 arg4 harg4 arg5 harg5 hA hB hC x1 x2 xs = k0_pay2 xs x2 x1 := by
  unfold leftInner
  rw [View.read_writes_eq_canon _ _ _ (coverInner c i arg1 harg1 arg2 harg2 arg3 harg3 arg4 harg4 arg5 harg5 hA hB hC x1 x2 xs)]
  unfold runInner
  dsimp only
  sl_unfold_run_names
  rw [View.canon_cons_unit_zero zeros2]
  simp only [View.readAt_eq_ld, Memref.IsWhole.read_unread, View.ld_unit_zero (S := S16x2048) zeros2,
    View.ld_unit_zero (S := S2048x1024) zeros2, View.ld_unit_zero (S := S16x1024) zeros2]

/-! ## Block 48 -/

theorem coverLastAcc (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i) (x0 : Vec F S26x16x1024 .f32) (x1 : Vec F S2048x1024 .f32) (x2 : Vec F S16x2048 .f32)
    (xs : Vec F S16x1024 .f32) (y : S16x1024.Idx) :
    ∃ pc ∈ (runLast (F := F) c i arg1 harg1 arg2 harg2 arg3 harg3 arg4 harg4 arg5 harg5 hA hB hC x0 x1 x2 xs).2.1, y ∈ pc.1.set :=
  View.cover_of_tiledL _ S16x1024.size (by sl_kernel_rfl) y

theorem coverLastRes (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i) (x0 : Vec F S26x16x1024 .f32) (x1 : Vec F S2048x1024 .f32) (x2 : Vec F S16x2048 .f32)
    (xs : Vec F S16x1024 .f32) (y : S26x1024.Idx) :
    ∃ pc ∈ (runLast (F := F) c i arg1 harg1 arg2 harg2 arg3 harg3 arg4 harg4 arg5 harg5 hA hB hC x0 x1 x2 xs).1, y ∈ pc.1.set :=
  View.cover_of_tiledL _ S26x1024.size (by sl_kernel_rfl) y

/-- What the last block leaves in the accumulator, -/
def leftLast (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i) (x0 : Vec F S26x16x1024 .f32) (x1 : Vec F S2048x1024 .f32) (x2 : Vec F S16x2048 .f32)
    (xs : Vec F S16x1024 .f32) : Vec F S16x1024 .f32 :=
  accV.read (Elt F) (accV.writes (Elt F) accV.junk (runLast (F := F) c i arg1 harg1 arg2 harg2 arg3 harg3 arg4 harg4 arg5 harg5 hA hB hC x0 x1 x2 xs).2.1)
/-- and in the result's buffer. -/
def scoresLast (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i) (x0 : Vec F S26x16x1024 .f32) (x1 : Vec F S2048x1024 .f32) (x2 : Vec F S16x2048 .f32)
    (xs : Vec F S16x1024 .f32) : Vec F S26x1024 .f32 :=
  resV.read (Elt F) (resV.writes (Elt F) resV.junk (runLast (F := F) c i arg1 harg1 arg2 harg2 arg3 harg3 arg4 harg4 arg5 harg5 hA hB hC x0 x1 x2 xs).1)

/-- The accumulator: the product of the 1696 users that exist, added to what block 47 left. -/
theorem leftLast_eq (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i) (x0 : Vec F S26x16x1024 .f32) (x1 : Vec F S2048x1024 .f32) (x2 : Vec F S16x2048 .f32)
    (xs : Vec F S16x1024 .f32) :
    leftLast (F := F) c i arg1 harg1 arg2 harg2 arg3 harg3 arg4 harg4 arg5 harg5 hA hB hC x0 x1 x2 xs = k0_pay3 xs (headCf x2) (headOh x1) := by
  unfold leftLast
  rw [View.read_writes_eq_canon _ _ _ (coverLastAcc c i arg1 harg1 arg2 harg2 arg3 harg3 arg4 harg4 arg5 harg5 hA hB hC x0 x1 x2 xs)]
  unfold runLast
  dsimp only
  sl_unfold_run_names
  rw [View.canon_cons_unit_zero zeros2]
  simp only [View.readAt_eq_ld, Memref.IsWhole.read_unread, View.ld_unit_zero (S := S16x1024) zeros2]

/-- The result: the features contracted with the finished accumulator. -/
theorem scoresLast_eq (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i) (x0 : Vec F S26x16x1024 .f32) (x1 : Vec F S2048x1024 .f32) (x2 : Vec F S16x2048 .f32)
    (xs : Vec F S16x1024 .f32) :
    scoresLast (F := F) c i arg1 harg1 arg2 harg2 arg3 harg3 arg4 harg4 arg5 harg5 hA hB hC x0 x1 x2 xs = k0_pay4 x0 (k0_pay3 xs (headCf x2) (headOh x1)) := by
  unfold scoresLast
  rw [View.read_writes_eq_canon _ _ _ (coverLastRes c i arg1 harg1 arg2 harg2 arg3 harg3 arg4 harg4 arg5 harg5 hA hB hC x0 x1 x2 xs)]
  unfold runLast
  dsimp only
  sl_unfold_run_names
  rw [View.canon_unit_zero zeros2]
  simp only [View.readAt_eq_ld, Memref.IsWhole.read_unread, View.ld_unit_zero (S := S16x1024) zeros2,
    View.ld_unit_zero (S := S26x16x1024) zeros3, View.readCov_unit_zero (S := S16x1024) _ zeros2]

end Cert.Kernel.Sweep

end
-- ==== Proof.SweepFrameBits.lean ====
/-
  The proof data of the sweep, the body obligation at every point, the run and the frame.

  The accumulator is followed point by point: after block `n` it holds `accAt n`, the product of block `n`
  added to `accAt (n - 1)` (to zero at block 0). The two streamed operands are staged in whole 2048-user buffers;
  the last block reaches past the arrays' end, and what its buffers hold there is not determined — so the staged
  contents are named with a fixed filler there, and the body is shown not to depend on the filler: blocks 0 … 47
  lie wholly inside the arrays, and block 48 reads only its leading 1696 users. The result's buffer is left alone
  at every block but the last, where it receives the scores.
-/
import proofs.«154908_g48799418417398_cont_8to1_c_1139_22_alg».proof.Proof.SweepPiecesBits

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the schedule facts the proof uses -/

abbrev ms0 (t : Fin cfg0.N) : Memref sig .tc .vmem S26x16x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S26x1024 .f32 := win0_3.stage (cfg0.slots t 3)
abbrev hs3 (t : Fin cfg0.N) : (ms3 t).IsWhole := hstage0_3 ((cfg0.slots t 3).cast nbuf0_3)

theorem N49 : cfg0.N = 49 := N_0

/-- The result is an output: never fetched; written back after block 48 only; untouched by the body elsewhere. -/
theorem nofetch3 : ∀ t : Fin cfg0.N, (cfg0.win 3).fetch t = false :=
  (by decide +kernel : ∀ t : Fin grid0.N, win0_3.fetch t = false)
theorem noflush3 : ∀ t : Fin cfg0.N, t.val ≠ 48 → (cfg0.win 3).flush t = false :=
  (by decide +kernel : ∀ t : Fin grid0.N, t.val ≠ 48 → win0_3.flush t = false)
theorem idle3 : ∀ t : Fin cfg0.N, t.val ≠ 48 → cfg0.idle 3 (grid0.coords t) = true := by decide +kernel
theorem live3 : ∀ t : Fin cfg0.N, t.val = 48 → cfg0.idle 3 (grid0.coords t) = false := by decide +kernel

/-- Blocks 0 … 47 of the two streamed operands lie wholly inside their arrays; block 48 has 1696 users inside. -/
theorem ohSize_full : ∀ t : Fin cfg0.N, t.val < 48 → ∀ a, win0_1.xsize (grid0.coords t) a = S2048x1024.size a :=
  (by decide +kernel : ∀ t : Fin grid0.N, t.val < 48 → ∀ a, win0_1.xsize (grid0.coords t) a = S2048x1024.size a)
theorem cfSize_full : ∀ t : Fin cfg0.N, t.val < 48 → ∀ a, win0_2.xsize (grid0.coords t) a = S16x2048.size a :=
  (by decide +kernel : ∀ t : Fin grid0.N, t.val < 48 → ∀ a, win0_2.xsize (grid0.coords t) a = S16x2048.size a)
theorem ohSize_last : ∀ t : Fin cfg0.N, t.val = 48 → ∀ a, win0_1.xsize (grid0.coords t) a = S1696x1024.size a :=
  (by decide +kernel : ∀ t : Fin grid0.N, t.val = 48 → ∀ a, win0_1.xsize (grid0.coords t) a = S1696x1024.size a)
theorem cfSize_last : ∀ t : Fin cfg0.N, t.val = 48 → ∀ a, win0_2.xsize (grid0.coords t) a = S16x1696.size a :=
  (by decide +kernel : ∀ t : Fin grid0.N, t.val = 48 → ∀ a, win0_2.xsize (grid0.coords t) a = S16x1696.size a)

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The staged blocks and the accumulator, point by point -/

/-- Block `t` of `onehotᵀ` as staged: the part inside the array, zero past its end. -/
def ohStaged (c : Dev nD) (t : Fin cfg0.N) : Vec F S2048x1024 .f32 :=
  win0_1.fill (grid0.coords t) (fun _ => Scalar.ofBits .f32 0#32) (iblk m c 1 t)
/-- Block `t` of `coefᵀ` as staged. -/
def cfStaged (c : Dev nD) (t : Fin cfg0.N) : Vec F S16x2048 .f32 :=
  win0_2.fill (grid0.coords t) (fun _ => Scalar.ofBits .f32 0#32) (iblk m c 2 t)

/-- THE ACCUMULATION: the accumulator after block `n`. -/
def accAt (c : Dev nD) : (n : ℕ) → n < cfg0.N → Vec F S16x1024 .f32
  | 0, hn => k0_pay2 (k0_pay1 (F := F)) (cfStaged m c ⟨0, hn⟩) (ohStaged m c ⟨0, hn⟩)
  | n + 1, hn =>
    if n + 1 < 48 then
      k0_pay2 (accAt c n (Nat.lt_of_succ_lt hn)) (cfStaged m c ⟨n + 1, hn⟩) (ohStaged m c ⟨n + 1, hn⟩)
    else
      k0_pay3 (accAt c n (Nat.lt_of_succ_lt hn)) (headCf (cfStaged m c ⟨n + 1, hn⟩)) (headOh (ohStaged m c ⟨n + 1, hn⟩))

theorem accAt_first (c : Dev nD) (t : Fin cfg0.N) (h : t.val = 0) :
    accAt m c t.val t.isLt = k0_pay2 (k0_pay1 (F := F)) (cfStaged m c t) (ohStaged m c t) := by
  obtain ⟨n, hn⟩ := t
  cases n with
  | zero => rfl
  | succ n => exact absurd h (Nat.succ_ne_zero n)

theorem accAt_inner (c : Dev nD) (t : Fin cfg0.N) (h0 : t.val ≠ 0) (h : t.val < 48) :
    accAt m c t.val t.isLt
      = k0_pay2 (accAt m c (t.val - 1) (Nat.lt_of_le_of_lt (Nat.sub_le _ _) t.isLt)) (cfStaged m c t) (ohStaged m c t) := by
  obtain ⟨n, hn⟩ := t
  cases n with
  | zero => exact absurd rfl h0
  | succ n => exact (if_pos h).trans rfl

theorem accAt_last (c : Dev nD) (t : Fin cfg0.N) (h0 : t.val ≠ 0) (h : ¬t.val < 48) :
    accAt m c t.val t.isLt
      = k0_pay3 (accAt m c (t.val - 1) (Nat.lt_of_le_of_lt (Nat.sub_le _ _) t.isLt)) (headCf (cfStaged m c t)) (headOh (ohStaged m c t)) := by
  obtain ⟨n, hn⟩ := t
  cases n with
  | zero => exact absurd rfl h0
  | succ n => exact (if_neg h).trans rfl

/-- The invariant before position `n`: before the first block the region's own; afterwards the accumulator at
    what block `n - 1` left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The arrays as the region finds them; after the body at block `t` the features' buffer at its block, the two
    streamed buffers at their staged blocks, the result's at the features contracted with the accumulator (read only
    at the last block, where it is the scores); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => ohStaged m c t
    | ⟨2, _⟩ => cfStaged m c t
    | ⟨3, _⟩ => k0_pay4 (iblk m c 0 t) (accAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = ohStaged m c t := by dsimp only [dats]
theorem after_2 (c : Dev nD) (t : Fin cfg0.N) : (dats m 0 c).after 2 t = cfStaged m c t := by dsimp only [dats]
theorem after_3 (c : Dev nD) (t : Fin cfg0.N) :
    (dats m 0 c).after 3 t = k0_pay4 (iblk m c 0 t) (accAt m c t.val t.isLt) := by dsimp only [dats]

/-! ## What each buffer holds when the body runs -/

/-- The features' buffer holds the whole array at every block (fetched once, never moved). -/
theorem before_0 (c : Dev nD) (t : Fin cfg0.N) (d) : (dats m 0 c).before 0 t d = iblk m c 0 t :=
  before0_0_of m (dats m 0 c) (A_eq m c 0) (after_0 m c) t d
/-- The streamed buffers are fetched at every block: the block's part inside the array, anything past it. -/
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]; try rfl
/-- The result's buffer holds what it held when the region began, at every block: no block before the last
    stores into it or writes it back. -/
theorem before_3 (c : Dev nD) (t : Fin cfg0.N) (d) : (dats m 0 c).before 3 t d = d := by
  obtain ⟨n, hn⟩ := t
  induction n using Nat.strong_induction_on generalizing d with
  | _ n ih =>
    by_cases hz : n = 0
    · subst hz
      unfold Dat.before
      rw [if_neg (by rw [nofetch3]; exact Bool.false_ne_true), if_pos rfl]
    · have hN : n < 49 := lt_of_lt_of_eq hn N49
      rw [Dat.before_of_pos _ 3 ⟨n, hn⟩ hz (nofetch3 _)]
      have hp : (⟨n - 1, Nat.lt_of_le_of_lt (Nat.sub_le _ _) hn⟩ : Fin cfg0.N).val ≠ 48 := by
        show n - 1 ≠ 48; omega
      rw [if_neg (by rw [noflush3 _ hp]; exact Bool.false_ne_true)]
      unfold Dat.left
      split
      · exact ih (n - 1) (by omega) d _
      · rename_i hlive
        exact Bool.noConfusion ((idle3 _ hp).symm.trans hlive)

/-! ## The body does not depend on what lies past the arrays' end -/

theorem ohFull (c : Dev nD) (t : Fin cfg0.N) (h : t.val < 48) (d) :
    win0_1.fill (grid0.coords t) d (iblk m c 1 t) = ohStaged m c t := by
  unfold ohStaged; funext j
  have hm : win0_1.moved (grid0.coords t) j = true :=
    (win0_1.moved_iff _ j).mpr fun a => by rw [ohSize_full t h a]; exact (j a).isLt
  unfold Window.fill; rw [dif_pos hm, dif_pos hm]

theorem cfFull (c : Dev nD) (t : Fin cfg0.N) (h : t.val < 48) (d) :
    win0_2.fill (grid0.coords t) d (iblk m c 2 t) = cfStaged m c t := by
  unfold cfStaged; funext j
  have hm : win0_2.moved (grid0.coords t) j = true :=
    (win0_2.moved_iff _ j).mpr fun a => by rw [cfSize_full t h a]; exact (j a).isLt
  unfold Window.fill; rw [dif_pos hm, dif_pos hm]

theorem headOh_fill (c : Dev nD) (t : Fin cfg0.N) (h : t.val = 48) (d) :
    headOh (win0_1.fill (grid0.coords t) d (iblk m c 1 t)) = headOh (ohStaged m c t) := by
  unfold ohStaged; funext y
  show win0_1.fill (grid0.coords t) d (iblk m c 1 t) ((Rect.unit (s := S2048x1024) ![0, 0] S1696x1024.size inb_S2048x1024_S1696x1024_0_0).idx y)
    = win0_1.fill (grid0.coords t) _ (iblk m c 1 t) ((Rect.unit (s := S2048x1024) ![0, 0] S1696x1024.size inb_S2048x1024_S1696x1024_0_0).idx y)
  have hm : win0_1.moved (grid0.coords t) ((Rect.unit (s := S2048x1024) ![0, 0] S1696x1024.size inb_S2048x1024_S1696x1024_0_0).idx y) = true :=
    (win0_1.moved_iff _ _).mpr fun a => by
      rw [ohSize_last t h a]
      match a with
      | ⟨0, _⟩ => show 0 + 1 * (y 0).val < 1696; have h0 : (y 0).val < 1696 := (y 0).isLt; omega
      | ⟨1, _⟩ => show 0 + 1 * (y 1).val < 1024; have h1 : (y 1).val < 1024 := (y 1).isLt; omega
  unfold Window.fill; rw [dif_pos hm, dif_pos hm]

theorem headCf_fill (c : Dev nD) (t : Fin cfg0.N) (h : t.val = 48) (d) :
    headCf (win0_2.fill (grid0.coords t) d (iblk m c 2 t)) = headCf (cfStaged m c t) := by
  unfold cfStaged; funext y
  show win0_2.fill (grid0.coords t) d (iblk m c 2 t) ((Rect.unit (s := S16x2048) ![0, 0] S16x1696.size inb_S16x2048_S16x1696_0_0).idx y)
    = win0_2.fill (grid0.coords t) _ (iblk m c 2 t) ((Rect.unit (s := S16x2048) ![0, 0] S16x1696.size inb_S16x2048_S16x1696_0_0).idx y)
  have hm : win0_2.moved (grid0.coords t) ((Rect.unit (s := S16x2048) ![0, 0] S16x1696.size inb_S16x2048_S16x1696_0_0).idx y) = true :=
    (win0_2.moved_iff _ _).mpr fun a => by
      rw [cfSize_last t h a]
      match a with
      | ⟨0, _⟩ => show 0 + 1 * (y 0).val < 16; have h0 : (y 0).val < 16 := (y 0).isLt; omega
      | ⟨1, _⟩ => show 0 + 1 * (y 1).val < 1696; have h1 : (y 1).val < 1696 := (y 1).isLt; omega
  unfold Window.fill; rw [dif_pos hm, dif_pos hm]

/-- What the loop asks of the streamed buffers after the body: the staged block on the part inside the array. -/
theorem cut_ohStaged (c : Dev nD) (t : Fin cfg0.N) : win0_1.cut (grid0.coords t) (ohStaged m c t) = iblk m c 1 t :=
  win0_1.cut_fill _ _ _
theorem cut_cfStaged (c : Dev nD) (t : Fin cfg0.N) : win0_2.cut (grid0.coords t) (cfStaged m c t) = iblk m c 2 t :=
  win0_2.cut_fill _ _ _

/-! ## The body obligation -/

theorem leaves_0 (c : Dev nD) (t : Fin cfg0.N) :
    (dats m 0 c).leaves 0 t = owns (c : Thread nD τ) (ms0 t) fullShare ((dats m 0 c).after 0 t) := rfl
theorem leaves_1 (c : Dev nD) (t : Fin cfg0.N) :
    (dats m 0 c).leaves 1 t = iprop(∃ d, owns (c : Thread nD τ) (ms1 t) fullShare
      (win0_1.fill (grid0.coords t) d (win0_1.cut (grid0.coords t) ((dats m 0 c).after 1 t)))) := rfl
theorem leaves_2 (c : Dev nD) (t : Fin cfg0.N) :
    (dats m 0 c).leaves 2 t = iprop(∃ d, owns (c : Thread nD τ) (ms2 t) fullShare
      (win0_2.fill (grid0.coords t) d (win0_2.cut (grid0.coords t) ((dats m 0 c).after 2 t)))) := rfl
theorem leaves_3_idle (c : Dev nD) (t : Fin cfg0.N) (h : t.val ≠ 48) :
    (dats m 0 c).leaves 3 t = iprop(∃ d, owns (c : Thread nD τ) (ms3 t) fullShare ((dats m 0 c).before 3 t d)) :=
  Dat.leaves_idle (dats m 0 c) 3 t (idle3 t h) (noflush3 t h)
theorem leaves_3_last (c : Dev nD) (t : Fin cfg0.N) (h : t.val = 48) :
    (dats m 0 c).leaves 3 t = owns (c : Thread nD τ) (ms3 t) fullShare ((dats m 0 c).after 3 t) := by
  unfold Dat.leaves; rw [live3 t h]

/-- What the body is called with at block `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
/-- The body at any block: the kind of block decides which run applies; the accumulator is handed over at what
    the block before left and taken back at this block's sum; the streamed buffers go back as they came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, after_0, after_1, after_2, cut_ohStaged, cut_cfStaged]
  have hN : t.val < 49 := lt_of_lt_of_eq t.isLt N49
  by_cases h0 : t.val = 0
  · -- block 0
    have hA : atFirst (grid0.coords t) := (atFirst_iff t).mpr h0
    have hB : atInner (grid0.coords t) := (atInner_iff t).mpr (by omega)
    have hC : ¬atLast (grid0.coords t) := fun h => by have := (atLast_iff t).mp h; omega
    rw [leaves_3_idle m c t (by omega), accAt_first m c t h0]
    simp only [before_0, before_1, before_2, before_3]
    rw [PhiS_castSucc m c t, PhiS_zero m c _ _ h0, PhiA_eq]
    iintro ⟨⟨HS, Hg⟩, Ho, ⟨%d0, H0⟩, ⟨%d1, H1⟩, ⟨%d2, H2⟩, ⟨%d3, H3⟩⟩
    iapply ((runFirst (F := F) c (grid0.coords t) (ms0 t) (hs0 t) (ms1 t) (hs1 t) (ms2 t) (hs2 t) (ms3 t) (hs3 t) accM (Memref.isWhole_whole _) hA hB hC
      (win0_1.fill (grid0.coords t) d1 (iblk m c 1 t)) (win0_2.fill (grid0.coords t) d2 (iblk m c 2 t))).2 (iblk m c 0 t) d3 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hg]
    · isplitl [HS]
      · unfold owns; iexists _; isplitr
        swap; · iexact HS
        ipureintro
        refine (View.read_writes_of_cover _ _ accV accV.junk _ (coverFirst c _ _ _ _ _ _ _ _ _ _ _ hA hB hC _ _)).trans ?_
        refine (leftFirst_eq (F := F) c _ _ _ _ _ _ _ _ _ _ _ hA hB hC _ _).trans ?_
        rw [ohFull m c t (by omega) d1, cfFull m c t (by omega) d2]
      iexact Hg
    isplitl [Ho]; · iexact Ho
    isplitl [H0]; · iexact H0
    isplitl [H1]; · iexists d1; iexact H1
    isplitl [H2]; · iexists d2; iexact H2
    iexists d3; iexact H3
  · by_cases h48 : t.val < 48
    · -- blocks 1 … 47
      have hA : ¬atFirst (grid0.coords t) := fun h => h0 ((atFirst_iff t).mp h)
      have hB : atInner (grid0.coords t) := (atInner_iff t).mpr h48
      have hC : ¬atLast (grid0.coords t) := fun h => by have := (atLast_iff t).mp h; omega
      rw [leaves_3_idle m c t (by omega), accAt_inner m c t h0 h48]
      simp only [before_0, before_1, before_2, before_3]
      rw [PhiS_castSucc m c t, PhiS_pos m c _ _ h0]
      iintro ⟨⟨HS, Hg⟩, Ho, ⟨%d0, H0⟩, ⟨%d1, H1⟩, ⟨%d2, H2⟩, ⟨%d3, H3⟩⟩
      iapply ((runInner (F := F) c (grid0.coords t) (ms0 t) (hs0 t) (ms1 t) (hs1 t) (ms2 t) (hs2 t) (ms3 t) (hs3 t) accM (Memref.isWhole_whole _) hA hB hC
        (win0_1.fill (grid0.coords t) d1 (iblk m c 1 t)) (win0_2.fill (grid0.coords t) d2 (iblk m c 2 t)) _).2 (iblk m c 0 t) d3 Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro
          refine (View.read_writes_of_cover _ _ accV accV.junk _ (coverInner c _ _ _ _ _ _ _ _ _ _ _ hA hB hC _ _ _)).trans ?_
          refine (leftInner_eq (F := F) c _ _ _ _ _ _ _ _ _ _ _ hA hB hC _ _ _).trans ?_
          rw [ohFull m c t h48 d1, cfFull m c t h48 d2]
        iexact Hg
      isplitl [Ho]; · iexact Ho
      isplitl [H0]; · iexact H0
      isplitl [H1]; · iexists d1; iexact H1
      isplitl [H2]; · iexists d2; iexact H2
      iexists d3; iexact H3
    · -- block 48
      have h48' : t.val = 48 := by omega
      have hA : ¬atFirst (grid0.coords t) := fun h => h0 ((atFirst_iff t).mp h)
      have hB : ¬atInner (grid0.coords t) := fun h => h48 ((atInner_iff t).mp h)
      have hC : atLast (grid0.coords t) := (atLast_iff t).mpr h48'
      rw [leaves_3_last m c t h48', after_3, accAt_last m c t h0 h48]
      simp only [before_0, before_1, before_2, before_3]
      rw [PhiS_castSucc m c t, PhiS_pos m c _ _ h0]
      iintro ⟨⟨HS, Hg⟩, Ho, ⟨%d0, H0⟩, ⟨%d1, H1⟩, ⟨%d2, H2⟩, ⟨%d3, H3⟩⟩
      iapply ((runLast (F := F) c (grid0.coords t) (ms0 t) (hs0 t) (ms1 t) (hs1 t) (ms2 t) (hs2 t) (ms3 t) (hs3 t) accM (Memref.isWhole_whole _) hA hB hC
        (iblk m c 0 t) (win0_1.fill (grid0.coords t) d1 (iblk m c 1 t)) (win0_2.fill (grid0.coords t) d2 (iblk m c 2 t)) _).2.2 Set.univ _)
      isplitl [H0]; · iexact H0
      isplitl [H1]; · iexact H1
      isplitl [H2]; · iexact H2
      isplitl [H3]; · iexists d3; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro
          refine (View.read_writes_of_cover _ _ accV accV.junk _ (coverLastAcc c _ _ _ _ _ _ _ _ _ _ _ hA hB hC _ _ _ _)).trans ?_
          refine (leftLast_eq (F := F) c _ _ _ _ _ _ _ _ _ _ _ hA hB hC _ _ _ _).trans ?_
          rw [headOh_fill m c t h48' d1, headCf_fill m c t h48' d2]
        iexact Hg
      isplitl [Ho]; · iexact Ho
      isplitl [H0]; · iexact H0
      isplitl [H1]; · iexists d1; iexact H1
      isplitl [H2]; · iexists d2; iexact H2
      unfold owns; iexists _; isplitr
      swap; · iexact H3
      ipureintro
      refine (View.read_writes_of_cover _ _ resV resV.junk _ (coverLastRes c _ _ _ _ _ _ _ _ _ _ _ hA hB hC _ _ _ _)).trans ?_
      refine (scoresLast_eq (F := F) c _ _ _ _ _ _ _ _ _ _ _ hA hB hC _ _ _ _).trans ?_
      rw [headOh_fill m c t h48' d1, headCf_fill m c t h48' d2]

/-- The loop's body obligation, at every block. -/
theorem body_obligation (c : Dev nD) : BodyObligationLoose (dats (F := F) m 0 c) (defs₀ (F := F)) Variants.none () Set.univ := fun t => by
  rw [bigSep_W0, bigSep_W0]
  exact sound_body m c t

/-! ## The run and the frame -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N49; omega), PhiA_eq]
  iintro ⟨HS, Hg⟩
  isplitl [HS]
  · iexists _; iexact HS
  iexact Hg

set_option backward.isDefEq.respectTransparency.types false in
/-- Every weakly fair execution of the program terminates, with every array of the sweep at what the proof data
    computes and every other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its three arguments as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Sweep

end
-- ==== Proof.SweepRunsIdeal.lean ====
/-
  The kernel body at its three kinds of grid point, run symbolically on whole staging buffers.

  The grid sweeps 49 blocks of users. At the FIRST block the accumulator (a 16 × 1024 scratch) is reset to zero and
  the block's product `coefᵀ_block · onehotᵀ_block` added to it; at an INNER block (1 … 47) the product is added to
  what the block before left; at the LAST block (48) only the leading 1696 users of the two staging buffers are
  contracted (the rest of the block lies past the arrays' end), the product is added, and the scores
  `out[i, n] = Σ_p x[i, p, n] · acc[p, n]` are stored. Each run returns the list of pieces its stores leave in the
  accumulator (and, at the last block, in the result's buffer) together with the proof that the body runs to a
  continuation that is handed exactly those pieces.
-/
import proofs.«154908_g48799418417398_cont_8to1_c_1139_22_alg».proof.Proof.Gen.KernelIdeal.Frame
import proofs.«154908_g48799418417398_cont_8to1_c_1139_22_alg».proof.Proof.Gen.KernelIdeal.Skeleton
import Idealize.ShloMosaic.Lib.Pipeline.FrameBody
import Idealize.ShloMosaic.Lib.Tactic

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Which kind of point: the body's three conditions, decided over the grid -/

/-- "This is block 0": the condition under which the accumulator is reset. -/
abbrev atFirst (i : grid0.Coords) : Prop :=
  (Scalar.cmpi .ne (Scalar.extui (Scalar.cmpi .eq (BitVec.ofNat 32 (i 0).val) 0#32)) 0#32) = 1#1
/-- "This block lies wholly inside the arrays" (block index below 48): a full 2048-user product is added. -/
abbrev atInner (i : grid0.Coords) : Prop :=
  (Scalar.cmpi .ne (Scalar.extui (Scalar.cmpi .slt (BitVec.ofNat 32 (i 0).val) 48#32)) 0#32) = 1#1
/-- "This is block 48", the one that overhangs the arrays: the 1696-user tail is added and the scores stored. -/
abbrev atLast (i : grid0.Coords) : Prop := k0_cond3 i = 1#1

theorem atFirst_iff : ∀ t : Fin cfg0.N, atFirst (grid0.coords t) ↔ t.val = 0 :=
  (by decide +kernel : ∀ t : Fin grid0.N, atFirst (grid0.coords t) ↔ t.val = 0)
theorem atInner_iff : ∀ t : Fin cfg0.N, atInner (grid0.coords t) ↔ t.val < 48 :=
  (by decide +kernel : ∀ t : Fin grid0.N, atInner (grid0.coords t) ↔ t.val < 48)
theorem atLast_iff : ∀ t : Fin cfg0.N, atLast (grid0.coords t) ↔ t.val = 48 :=
  (by decide +kernel : ∀ t : Fin grid0.N, atLast (grid0.coords t) ↔ t.val = 48)

/-! ## The three runs -/

set_option maxHeartbeats 1000000 in
/-- Block 0. The accumulator arrives at anything; the features' and the result's buffers are not touched. -/
noncomputable def runFirst (c : Dev nD) (i : grid0.Coords)
    (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : atFirst i) (hB : atInner i) (hC : ¬atLast i)
    (x1 : Vec F S2048x1024 .f32) (x2 : Vec F S16x2048 .f32) :
    { LS : List (View.Piece (Elt F) S16x1024 .f32) //
      ∀ (x0 : Vec F S26x16x1024 .f32) (xo : Vec F S26x1024 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__coef_kernel i arg1 harg1 arg2 harg2 arg3 harg3 arg4 harg4 arg5 harg5) K } := by
  refine ⟨?_, fun x0 xo E K => ?run⟩
  case run =>
    simp only [cc0__coef_kernel_eq_skeleton]; unfold cc0__coef_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg1.eq_unread hf0; obtain rfl := harg2.eq_unread hf1; obtain rfl := harg3.eq_unread hf2
    obtain rfl := harg4.eq_unread hf3
    sl_exec (disch := first | exact hA | exact hB | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 1000000 in
/-- Blocks 1 … 47. The accumulator arrives at what the block before left, `xs`. -/
noncomputable def runInner (c : Dev nD) (i : grid0.Coords)
    (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : atInner i) (hC : ¬atLast i)
    (x1 : Vec F S2048x1024 .f32) (x2 : Vec F S16x2048 .f32) (xs : Vec F S16x1024 .f32) :
    { LS : List (View.Piece (Elt F) S16x1024 .f32) //
      ∀ (x0 : Vec F S26x16x1024 .f32) (xo : Vec F S26x1024 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare xs
            ∗ (iprop(owns (c : Thread nD τ) arg1 fullShare x0 ∗ owns (c : Thread nD τ) arg2 fullShare x1 ∗ owns (c : Thread nD τ) arg3 fullShare x2
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__coef_kernel i arg1 harg1 arg2 harg2 arg3 harg3 arg4 harg4 arg5 harg5) K } := by
  refine ⟨?_, fun x0 xo E K => ?run⟩
  case run =>
    simp only [cc0__coef_kernel_eq_skeleton]; unfold cc0__coef_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hfs
    sl_exec (disch := first | exact hA | exact hB | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 1000000 in
/-- Block 48. The accumulator arrives at `xs`; the result's buffer arrives at anything and leaves with the scores. -/
noncomputable def runLast (c : Dev nD) (i : grid0.Coords)
    (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i)
    (x0 : Vec F S26x16x1024 .f32) (x1 : Vec F S2048x1024 .f32) (x2 : Vec F S16x2048 .f32) (xs : Vec F S16x1024 .f32) :
    Σ' (LO : List (View.Piece (Elt F) S26x1024 .f32)), { LS : List (View.Piece (Elt F) S16x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__coef_kernel i arg1 harg1 arg2 harg2 arg3 harg3 arg4 harg4 arg5 harg5) K } := by
  refine ⟨?_, ?_, fun E K => ?run⟩
  case run =>
    simp only [cc0__coef_kernel_eq_skeleton]; unfold cc0__coef_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2
    obtain rfl := harg5.eq_unread hfs
    sl_exec (disch := first | exact hA | exact hB | exact hC)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.KernelIdeal.Sweep

end
-- ==== Proof.SweepPiecesIdeal.lean ====
/-
  What each kind of point leaves behind, as a payload term.

  The runs return lists of pieces (a rectangle and the value stored through it). Every store of this body is
  through the whole buffer, so the last piece alone decides the contents: the accumulator is left at the
  block's product added to what it held (zero at block 0, where it was just reset), and at the last block the
  result's buffer at the contraction of the features with the finished accumulator. The last block reads only
  the leading 1696 users of its two staging buffers.
-/
import proofs.«154908_g48799418417398_cont_8to1_c_1139_22_alg».proof.Proof.SweepRunsIdeal
import Idealize.ShloMosaic.Lib.Pipeline.Value

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator as a whole buffer, and the view through which its contents are stated. -/
abbrev accM : Memref sig .tc .vmem S16x1024 .f32 := Memref.whole cc0_scratch0
abbrev accV : View sig .tc .vmem S16x1024 .f32 := (accM).view
/-- One staging buffer of the result, through which its contents are stated (which one does not matter). -/
abbrev resV : View sig .tc .vmem S26x1024 .f32 := (Memref.whole cc0_stg3_0 : Memref sig .tc .vmem S26x1024 .f32).view

/-- The leading 1696 columns of a staged `coefᵀ` block, and the leading 1696 rows of a staged `onehotᵀ` block:
    the users of the last block that exist. -/
abbrev headCf (x2 : Vec F S16x2048 .f32) : Vec F S16x1696 .f32 :=
  View.ld x2 (Rect.unit (s := S16x2048) ![0, 0] S16x1696.size inb_S16x2048_S16x1696_0_0)
abbrev headOh (x1 : Vec F S2048x1024 .f32) : Vec F S1696x1024 .f32 :=
  View.ld x1 (Rect.unit (s := S2048x1024) ![0, 0] S1696x1024.size inb_S2048x1024_S1696x1024_0_0)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## Block 0 -/

theorem coverFirst (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : atFirst i) (hB : atInner i) (hC : ¬atLast i) (x1 : Vec F S2048x1024 .f32) (x2 : Vec F S16x2048 .f32) (y : S16x1024.Idx) :
    ∃ pc ∈ (runFirst (F := F) c i arg1 harg1 arg2 harg2 arg3 harg3 arg4 harg4 arg5 harg5 hA hB hC x1 x2).1, y ∈ pc.1.set :=
  View.cover_of_tiledL _ S16x1024.size (by sl_kernel_rfl) y

/-- What block 0 leaves in the accumulator. -/
def leftFirst (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : atFirst i) (hB : atInner i) (hC : ¬atLast i) (x1 : Vec F S2048x1024 .f32) (x2 : Vec F S16x2048 .f32) : Vec F S16x1024 .f32 :=
  accV.read (Elt F) (accV.writes (Elt F) accV.junk (runFirst (F := F) c i arg1 harg1 arg2 harg2 arg3 harg3 arg4 harg4 arg5 harg5 hA hB hC x1 x2).1)

/-- It is the block's product added to the zero it was reset to. -/
theorem leftFirst_eq (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : atFirst i) (hB : atInner i) (hC : ¬atLast i) (x1 : Vec F S2048x1024 .f32) (x2 : Vec F S16x2048 .f32) :
    leftFirst (F := F) c i arg1 harg1 arg2 harg2 arg3 harg3 arg4 harg4 arg5 harg5 hA hB hC x1 x2 = k0_pay2 (k0_pay1 (F := F)) x2 x1 := by
  unfold leftFirst
  rw [View.read_writes_eq_canon _ _ _ (coverFirst c i arg1 harg1 arg2 harg2 arg3 harg3 arg4 harg4 arg5 harg5 hA hB hC x1 x2)]
  unfold runFirst
  dsimp only
  sl_unfold_run_names
  rw [View.canon_cons_unit_zero zeros2]
  simp only [View.readAt_eq_ld, Memref.IsWhole.read_unread, View.ld_unit_zero (S := S16x2048) zeros2,
    View.ld_unit_zero (S := S2048x1024) zeros2, View.readCov_unit_zero (S := S16x1024) _ zeros2]

/-! ## Blocks 1 … 47 -/

theorem coverInner (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : atInner i) (hC : ¬atLast i) (x1 : Vec F S2048x1024 .f32) (x2 : Vec F S16x2048 .f32) (xs : Vec F S16x1024 .f32)
    (y : S16x1024.Idx) :
    ∃ pc ∈ (runInner (F := F) c i arg1 harg1 arg2 harg2 arg3 harg3 arg4 harg4 arg5 harg5 hA hB hC x1 x2 xs).1, y ∈ pc.1.set :=
  View.cover_of_tiledL _ S16x1024.size (by sl_kernel_rfl) y

/-- What an inner block leaves in the accumulator. -/
def leftInner (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : atInner i) (hC : ¬atLast i) (x1 : Vec F S2048x1024 .f32) (x2 : Vec F S16x2048 .f32) (xs : Vec F S16x1024 .f32) :
    Vec F S16x1024 .f32 :=
  accV.read (Elt F) (accV.writes (Elt F) accV.junk (runInner (F := F) c i arg1 harg1 arg2 harg2 arg3 harg3 arg4 harg4 arg5 harg5 hA hB hC x1 x2 xs).1)

/-- It is the block's product added to what the block before left. -/
theorem leftInner_eq (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : atInner i) (hC : ¬atLast i) (x1 : Vec F S2048x1024 .f32) (x2 : Vec F S16x2048 .f32) (xs : Vec F S16x1024 .f32) :
    leftInner (F := F) c i arg1 harg1 arg2 harg2 arg3 harg3 arg4 harg4 arg5 harg5 hA hB hC x1 x2 xs = k0_pay2 xs x2 x1 := by
  unfold leftInner
  rw [View.read_writes_eq_canon _ _ _ (coverInner c i arg1 harg1 arg2 harg2 arg3 harg3 arg4 harg4 arg5 harg5 hA hB hC x1 x2 xs)]
  unfold runInner
  dsimp only
  sl_unfold_run_names
  rw [View.canon_cons_unit_zero zeros2]
  simp only [View.readAt_eq_ld, Memref.IsWhole.read_unread, View.ld_unit_zero (S := S16x2048) zeros2,
    View.ld_unit_zero (S := S2048x1024) zeros2, View.ld_unit_zero (S := S16x1024) zeros2]

/-! ## Block 48 -/

theorem coverLastAcc (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i) (x0 : Vec F S26x16x1024 .f32) (x1 : Vec F S2048x1024 .f32) (x2 : Vec F S16x2048 .f32)
    (xs : Vec F S16x1024 .f32) (y : S16x1024.Idx) :
    ∃ pc ∈ (runLast (F := F) c i arg1 harg1 arg2 harg2 arg3 harg3 arg4 harg4 arg5 harg5 hA hB hC x0 x1 x2 xs).2.1, y ∈ pc.1.set :=
  View.cover_of_tiledL _ S16x1024.size (by sl_kernel_rfl) y

theorem coverLastRes (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i) (x0 : Vec F S26x16x1024 .f32) (x1 : Vec F S2048x1024 .f32) (x2 : Vec F S16x2048 .f32)
    (xs : Vec F S16x1024 .f32) (y : S26x1024.Idx) :
    ∃ pc ∈ (runLast (F := F) c i arg1 harg1 arg2 harg2 arg3 harg3 arg4 harg4 arg5 harg5 hA hB hC x0 x1 x2 xs).1, y ∈ pc.1.set :=
  View.cover_of_tiledL _ S26x1024.size (by sl_kernel_rfl) y

/-- What the last block leaves in the accumulator, -/
def leftLast (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i) (x0 : Vec F S26x16x1024 .f32) (x1 : Vec F S2048x1024 .f32) (x2 : Vec F S16x2048 .f32)
    (xs : Vec F S16x1024 .f32) : Vec F S16x1024 .f32 :=
  accV.read (Elt F) (accV.writes (Elt F) accV.junk (runLast (F := F) c i arg1 harg1 arg2 harg2 arg3 harg3 arg4 harg4 arg5 harg5 hA hB hC x0 x1 x2 xs).2.1)
/-- and in the result's buffer. -/
def scoresLast (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i) (x0 : Vec F S26x16x1024 .f32) (x1 : Vec F S2048x1024 .f32) (x2 : Vec F S16x2048 .f32)
    (xs : Vec F S16x1024 .f32) : Vec F S26x1024 .f32 :=
  resV.read (Elt F) (resV.writes (Elt F) resV.junk (runLast (F := F) c i arg1 harg1 arg2 harg2 arg3 harg3 arg4 harg4 arg5 harg5 hA hB hC x0 x1 x2 xs).1)

/-- The accumulator: the product of the 1696 users that exist, added to what block 47 left. -/
theorem leftLast_eq (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i) (x0 : Vec F S26x16x1024 .f32) (x1 : Vec F S2048x1024 .f32) (x2 : Vec F S16x2048 .f32)
    (xs : Vec F S16x1024 .f32) :
    leftLast (F := F) c i arg1 harg1 arg2 harg2 arg3 harg3 arg4 harg4 arg5 harg5 hA hB hC x0 x1 x2 xs = k0_pay3 xs (headCf x2) (headOh x1) := by
  unfold leftLast
  rw [View.read_writes_eq_canon _ _ _ (coverLastAcc c i arg1 harg1 arg2 harg2 arg3 harg3 arg4 harg4 arg5 harg5 hA hB hC x0 x1 x2 xs)]
  unfold runLast
  dsimp only
  sl_unfold_run_names
  rw [View.canon_cons_unit_zero zeros2]
  simp only [View.readAt_eq_ld, Memref.IsWhole.read_unread, View.ld_unit_zero (S := S16x1024) zeros2]

/-- The result: the features contracted with the finished accumulator. -/
theorem scoresLast_eq (c : Dev nD) (i : grid0.Coords) (arg1 : Memref sig .tc .vmem S26x16x1024 .f32) (harg1 : arg1.IsWhole) (arg2 : Memref sig .tc .vmem S2048x1024 .f32) (harg2 : arg2.IsWhole)
    (arg3 : Memref sig .tc .vmem S16x2048 .f32) (harg3 : arg3.IsWhole) (arg4 : Memref sig .tc .vmem S26x1024 .f32) (harg4 : arg4.IsWhole)
    (arg5 : Memref sig .tc .vmem S16x1024 .f32) (harg5 : arg5.IsWhole)
    (hA : ¬atFirst i) (hB : ¬atInner i) (hC : atLast i) (x0 : Vec F S26x16x1024 .f32) (x1 : Vec F S2048x1024 .f32) (x2 : Vec F S16x2048 .f32)
    (xs : Vec F S16x1024 .f32) :
    scoresLast (F := F) c i arg1 harg1 arg2 harg2 arg3 harg3 arg4 harg4 arg5 harg5 hA hB hC x0 x1 x2 xs = k0_pay4 x0 (k0_pay3 xs (headCf x2) (headOh x1)) := by
  unfold scoresLast
  rw [View.read_writes_eq_canon _ _ _ (coverLastRes c i arg1 harg1 arg2 harg2 arg3 harg3 arg4 harg4 arg5 harg5 hA hB hC x0 x1 x2 xs)]
  unfold runLast
  dsimp only
  sl_unfold_run_names
  rw [View.canon_unit_zero zeros2]
  simp only [View.readAt_eq_ld, Memref.IsWhole.read_unread, View.ld_unit_zero (S := S16x1024) zeros2,
    View.ld_unit_zero (S := S26x16x1024) zeros3, View.readCov_unit_zero (S := S16x1024) _ zeros2]

end Cert.KernelIdeal.Sweep

end
-- ==== Proof.SweepFrameIdeal.lean ====
/-
  The proof data of the sweep, the body obligation at every point, the run and the frame.

  The accumulator is followed point by point: after block `n` it holds `accAt n`, the product of block `n`
  added to `accAt (n - 1)` (to zero at block 0). The two streamed operands are staged in whole 2048-user buffers;
  the last block reaches past the arrays' end, and what its buffers hold there is not determined — so the staged
  contents are named with a fixed filler there, and the body is shown not to depend on the filler: blocks 0 … 47
  lie wholly inside the arrays, and block 48 reads only its leading 1696 users. The result's buffer is left alone
  at every block but the last, where it receives the scores.
-/
import proofs.«154908_g48799418417398_cont_8to1_c_1139_22_alg».proof.Proof.SweepPiecesIdeal

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the schedule facts the proof uses -/

abbrev ms0 (t : Fin cfg0.N) : Memref sig .tc .vmem S26x16x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S26x1024 .f32 := win0_3.stage (cfg0.slots t 3)
abbrev hs3 (t : Fin cfg0.N) : (ms3 t).IsWhole := hstage0_3 ((cfg0.slots t 3).cast nbuf0_3)

theorem N49 : cfg0.N = 49 := N_0

/-- The result is an output: never fetched; written back after block 48 only; untouched by the body elsewhere. -/
theorem nofetch3 : ∀ t : Fin cfg0.N, (cfg0.win 3).fetch t = false :=
  (by decide +kernel : ∀ t : Fin grid0.N, win0_3.fetch t = false)
theorem noflush3 : ∀ t : Fin cfg0.N, t.val ≠ 48 → (cfg0.win 3).flush t = false :=
  (by decide +kernel : ∀ t : Fin grid0.N, t.val ≠ 48 → win0_3.flush t = false)
theorem idle3 : ∀ t : Fin cfg0.N, t.val ≠ 48 → cfg0.idle 3 (grid0.coords t) = true := by decide +kernel
theorem live3 : ∀ t : Fin cfg0.N, t.val = 48 → cfg0.idle 3 (grid0.coords t) = false := by decide +kernel

/-- Blocks 0 … 47 of the two streamed operands lie wholly inside their arrays; block 48 has 1696 users inside. -/
theorem ohSize_full : ∀ t : Fin cfg0.N, t.val < 48 → ∀ a, win0_1.xsize (grid0.coords t) a = S2048x1024.size a :=
  (by decide +kernel : ∀ t : Fin grid0.N, t.val < 48 → ∀ a, win0_1.xsize (grid0.coords t) a = S2048x1024.size a)
theorem cfSize_full : ∀ t : Fin cfg0.N, t.val < 48 → ∀ a, win0_2.xsize (grid0.coords t) a = S16x2048.size a :=
  (by decide +kernel : ∀ t : Fin grid0.N, t.val < 48 → ∀ a, win0_2.xsize (grid0.coords t) a = S16x2048.size a)
theorem ohSize_last : ∀ t : Fin cfg0.N, t.val = 48 → ∀ a, win0_1.xsize (grid0.coords t) a = S1696x1024.size a :=
  (by decide +kernel : ∀ t : Fin grid0.N, t.val = 48 → ∀ a, win0_1.xsize (grid0.coords t) a = S1696x1024.size a)
theorem cfSize_last : ∀ t : Fin cfg0.N, t.val = 48 → ∀ a, win0_2.xsize (grid0.coords t) a = S16x1696.size a :=
  (by decide +kernel : ∀ t : Fin grid0.N, t.val = 48 → ∀ a, win0_2.xsize (grid0.coords t) a = S16x1696.size a)

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The staged blocks and the accumulator, point by point -/

/-- Block `t` of `onehotᵀ` as staged: the part inside the array, zero past its end. -/
def ohStaged (c : Dev nD) (t : Fin cfg0.N) : Vec F S2048x1024 .f32 :=
  win0_1.fill (grid0.coords t) (fun _ => Scalar.ofBits .f32 0#32) (iblk m c 1 t)
/-- Block `t` of `coefᵀ` as staged. -/
def cfStaged (c : Dev nD) (t : Fin cfg0.N) : Vec F S16x2048 .f32 :=
  win0_2.fill (grid0.coords t) (fun _ => Scalar.ofBits .f32 0#32) (iblk m c 2 t)

/-- THE ACCUMULATION: the accumulator after block `n`. -/
def accAt (c : Dev nD) : (n : ℕ) → n < cfg0.N → Vec F S16x1024 .f32
  | 0, hn => k0_pay2 (k0_pay1 (F := F)) (cfStaged m c ⟨0, hn⟩) (ohStaged m c ⟨0, hn⟩)
  | n + 1, hn =>
    if n + 1 < 48 then
      k0_pay2 (accAt c n (Nat.lt_of_succ_lt hn)) (cfStaged m c ⟨n + 1, hn⟩) (ohStaged m c ⟨n + 1, hn⟩)
    else
      k0_pay3 (accAt c n (Nat.lt_of_succ_lt hn)) (headCf (cfStaged m c ⟨n + 1, hn⟩)) (headOh (ohStaged m c ⟨n + 1, hn⟩))

theorem accAt_first (c : Dev nD) (t : Fin cfg0.N) (h : t.val = 0) :
    accAt m c t.val t.isLt = k0_pay2 (k0_pay1 (F := F)) (cfStaged m c t) (ohStaged m c t) := by
  obtain ⟨n, hn⟩ := t
  cases n with
  | zero => rfl
  | succ n => exact absurd h (Nat.succ_ne_zero n)

theorem accAt_inner (c : Dev nD) (t : Fin cfg0.N) (h0 : t.val ≠ 0) (h : t.val < 48) :
    accAt m c t.val t.isLt
      = k0_pay2 (accAt m c (t.val - 1) (Nat.lt_of_le_of_lt (Nat.sub_le _ _) t.isLt)) (cfStaged m c t) (ohStaged m c t) := by
  obtain ⟨n, hn⟩ := t
  cases n with
  | zero => exact absurd rfl h0
  | succ n => exact (if_pos h).trans rfl

theorem accAt_last (c : Dev nD) (t : Fin cfg0.N) (h0 : t.val ≠ 0) (h : ¬t.val < 48) :
    accAt m c t.val t.isLt
      = k0_pay3 (accAt m c (t.val - 1) (Nat.lt_of_le_of_lt (Nat.sub_le _ _) t.isLt)) (headCf (cfStaged m c t)) (headOh (ohStaged m c t)) := by
  obtain ⟨n, hn⟩ := t
  cases n with
  | zero => exact absurd rfl h0
  | succ n => exact (if_neg h).trans rfl

/-- The invariant before position `n`: before the first block the region's own; afterwards the accumulator at
    what block `n - 1` left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The arrays as the region finds them; after the body at block `t` the features' buffer at its block, the two
    streamed buffers at their staged blocks, the result's at the features contracted with the accumulator (read only
    at the last block, where it is the scores); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => ohStaged m c t
    | ⟨2, _⟩ => cfStaged m c t
    | ⟨3, _⟩ => k0_pay4 (iblk m c 0 t) (accAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = ohStaged m c t := by dsimp only [dats]
theorem after_2 (c : Dev nD) (t : Fin cfg0.N) : (dats m 0 c).after 2 t = cfStaged m c t := by dsimp only [dats]
theorem after_3 (c : Dev nD) (t : Fin cfg0.N) :
    (dats m 0 c).after 3 t = k0_pay4 (iblk m c 0 t) (accAt m c t.val t.isLt) := by dsimp only [dats]

/-! ## What each buffer holds when the body runs -/

/-- The features' buffer holds the whole array at every block (fetched once, never moved). -/
theorem before_0 (c : Dev nD) (t : Fin cfg0.N) (d) : (dats m 0 c).before 0 t d = iblk m c 0 t :=
  before0_0_of m (dats m 0 c) (A_eq m c 0) (after_0 m c) t d
/-- The streamed buffers are fetched at every block: the block's part inside the array, anything past it. -/
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]; try rfl
/-- The result's buffer holds what it held when the region began, at every block: no block before the last
    stores into it or writes it back. -/
theorem before_3 (c : Dev nD) (t : Fin cfg0.N) (d) : (dats m 0 c).before 3 t d = d := by
  obtain ⟨n, hn⟩ := t
  induction n using Nat.strong_induction_on generalizing d with
  | _ n ih =>
    by_cases hz : n = 0
    · subst hz
      unfold Dat.before
      rw [if_neg (by rw [nofetch3]; exact Bool.false_ne_true), if_pos rfl]
    · have hN : n < 49 := lt_of_lt_of_eq hn N49
      rw [Dat.before_of_pos _ 3 ⟨n, hn⟩ hz (nofetch3 _)]
      have hp : (⟨n - 1, Nat.lt_of_le_of_lt (Nat.sub_le _ _) hn⟩ : Fin cfg0.N).val ≠ 48 := by
        show n - 1 ≠ 48; omega
      rw [if_neg (by rw [noflush3 _ hp]; exact Bool.false_ne_true)]
      unfold Dat.left
      split
      · exact ih (n - 1) (by omega) d _
      · rename_i hlive
        exact Bool.noConfusion ((idle3 _ hp).symm.trans hlive)

/-! ## The body does not depend on what lies past the arrays' end -/

theorem ohFull (c : Dev nD) (t : Fin cfg0.N) (h : t.val < 48) (d) :
    win0_1.fill (grid0.coords t) d (iblk m c 1 t) = ohStaged m c t := by
  unfold ohStaged; funext j
  have hm : win0_1.moved (grid0.coords t) j = true :=
    (win0_1.moved_iff _ j).mpr fun a => by rw [ohSize_full t h a]; exact (j a).isLt
  unfold Window.fill; rw [dif_pos hm, dif_pos hm]

theorem cfFull (c : Dev nD) (t : Fin cfg0.N) (h : t.val < 48) (d) :
    win0_2.fill (grid0.coords t) d (iblk m c 2 t) = cfStaged m c t := by
  unfold cfStaged; funext j
  have hm : win0_2.moved (grid0.coords t) j = true :=
    (win0_2.moved_iff _ j).mpr fun a => by rw [cfSize_full t h a]; exact (j a).isLt
  unfold Window.fill; rw [dif_pos hm, dif_pos hm]

theorem headOh_fill (c : Dev nD) (t : Fin cfg0.N) (h : t.val = 48) (d) :
    headOh (win0_1.fill (grid0.coords t) d (iblk m c 1 t)) = headOh (ohStaged m c t) := by
  unfold ohStaged; funext y
  show win0_1.fill (grid0.coords t) d (iblk m c 1 t) ((Rect.unit (s := S2048x1024) ![0, 0] S1696x1024.size inb_S2048x1024_S1696x1024_0_0).idx y)
    = win0_1.fill (grid0.coords t) _ (iblk m c 1 t) ((Rect.unit (s := S2048x1024) ![0, 0] S1696x1024.size inb_S2048x1024_S1696x1024_0_0).idx y)
  have hm : win0_1.moved (grid0.coords t) ((Rect.unit (s := S2048x1024) ![0, 0] S1696x1024.size inb_S2048x1024_S1696x1024_0_0).idx y) = true :=
    (win0_1.moved_iff _ _).mpr fun a => by
      rw [ohSize_last t h a]
      match a with
      | ⟨0, _⟩ => show 0 + 1 * (y 0).val < 1696; have h0 : (y 0).val < 1696 := (y 0).isLt; omega
      | ⟨1, _⟩ => show 0 + 1 * (y 1).val < 1024; have h1 : (y 1).val < 1024 := (y 1).isLt; omega
  unfold Window.fill; rw [dif_pos hm, dif_pos hm]

theorem headCf_fill (c : Dev nD) (t : Fin cfg0.N) (h : t.val = 48) (d) :
    headCf (win0_2.fill (grid0.coords t) d (iblk m c 2 t)) = headCf (cfStaged m c t) := by
  unfold cfStaged; funext y
  show win0_2.fill (grid0.coords t) d (iblk m c 2 t) ((Rect.unit (s := S16x2048) ![0, 0] S16x1696.size inb_S16x2048_S16x1696_0_0).idx y)
    = win0_2.fill (grid0.coords t) _ (iblk m c 2 t) ((Rect.unit (s := S16x2048) ![0, 0] S16x1696.size inb_S16x2048_S16x1696_0_0).idx y)
  have hm : win0_2.moved (grid0.coords t) ((Rect.unit (s := S16x2048) ![0, 0] S16x1696.size inb_S16x2048_S16x1696_0_0).idx y) = true :=
    (win0_2.moved_iff _ _).mpr fun a => by
      rw [cfSize_last t h a]
      match a with
      | ⟨0, _⟩ => show 0 + 1 * (y 0).val < 16; have h0 : (y 0).val < 16 := (y 0).isLt; omega
      | ⟨1, _⟩ => show 0 + 1 * (y 1).val < 1696; have h1 : (y 1).val < 1696 := (y 1).isLt; omega
  unfold Window.fill; rw [dif_pos hm, dif_pos hm]

/-- What the loop asks of the streamed buffers after the body: the staged block on the part inside the array. -/
theorem cut_ohStaged (c : Dev nD) (t : Fin cfg0.N) : win0_1.cut (grid0.coords t) (ohStaged m c t) = iblk m c 1 t :=
  win0_1.cut_fill _ _ _
theorem cut_cfStaged (c : Dev nD) (t : Fin cfg0.N) : win0_2.cut (grid0.coords t) (cfStaged m c t) = iblk m c 2 t :=
  win0_2.cut_fill _ _ _

/-! ## The body obligation -/

theorem leaves_0 (c : Dev nD) (t : Fin cfg0.N) :
    (dats m 0 c).leaves 0 t = owns (c : Thread nD τ) (ms0 t) fullShare ((dats m 0 c).after 0 t) := rfl
theorem leaves_1 (c : Dev nD) (t : Fin cfg0.N) :
    (dats m 0 c).leaves 1 t = iprop(∃ d, owns (c : Thread nD τ) (ms1 t) fullShare
      (win0_1.fill (grid0.coords t) d (win0_1.cut (grid0.coords t) ((dats m 0 c).after 1 t)))) := rfl
theorem leaves_2 (c : Dev nD) (t : Fin cfg0.N) :
    (dats m 0 c).leaves 2 t = iprop(∃ d, owns (c : Thread nD τ) (ms2 t) fullShare
      (win0_2.fill (grid0.coords t) d (win0_2.cut (grid0.coords t) ((dats m 0 c).after 2 t)))) := rfl
theorem leaves_3_idle (c : Dev nD) (t : Fin cfg0.N) (h : t.val ≠ 48) :
    (dats m 0 c).leaves 3 t = iprop(∃ d, owns (c : Thread nD τ) (ms3 t) fullShare ((dats m 0 c).before 3 t d)) :=
  Dat.leaves_idle (dats m 0 c) 3 t (idle3 t h) (noflush3 t h)
theorem leaves_3_last (c : Dev nD) (t : Fin cfg0.N) (h : t.val = 48) :
    (dats m 0 c).leaves 3 t = owns (c : Thread nD τ) (ms3 t) fullShare ((dats m 0 c).after 3 t) := by
  unfold Dat.leaves; rw [live3 t h]

/-- What the body is called with at block `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
/-- The body at any block: the kind of block decides which run applies; the accumulator is handed over at what
    the block before left and taken back at this block's sum; the streamed buffers go back as they came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, after_0, after_1, after_2, cut_ohStaged, cut_cfStaged]
  have hN : t.val < 49 := lt_of_lt_of_eq t.isLt N49
  by_cases h0 : t.val = 0
  · -- block 0
    have hA : atFirst (grid0.coords t) := (atFirst_iff t).mpr h0
    have hB : atInner (grid0.coords t) := (atInner_iff t).mpr (by omega)
    have hC : ¬atLast (grid0.coords t) := fun h => by have := (atLast_iff t).mp h; omega
    rw [leaves_3_idle m c t (by omega), accAt_first m c t h0]
    simp only [before_0, before_1, before_2, before_3]
    rw [PhiS_castSucc m c t, PhiS_zero m c _ _ h0, PhiA_eq]
    iintro ⟨⟨HS, Hg⟩, Ho, ⟨%d0, H0⟩, ⟨%d1, H1⟩, ⟨%d2, H2⟩, ⟨%d3, H3⟩⟩
    iapply ((runFirst (F := F) c (grid0.coords t) (ms0 t) (hs0 t) (ms1 t) (hs1 t) (ms2 t) (hs2 t) (ms3 t) (hs3 t) accM (Memref.isWhole_whole _) hA hB hC
      (win0_1.fill (grid0.coords t) d1 (iblk m c 1 t)) (win0_2.fill (grid0.coords t) d2 (iblk m c 2 t))).2 (iblk m c 0 t) d3 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hg]
    · isplitl [HS]
      · unfold owns; iexists _; isplitr
        swap; · iexact HS
        ipureintro
        refine (View.read_writes_of_cover _ _ accV accV.junk _ (coverFirst c _ _ _ _ _ _ _ _ _ _ _ hA hB hC _ _)).trans ?_
        refine (leftFirst_eq (F := F) c _ _ _ _ _ _ _ _ _ _ _ hA hB hC _ _).trans ?_
        rw [ohFull m c t (by omega) d1, cfFull m c t (by omega) d2]
      iexact Hg
    isplitl [Ho]; · iexact Ho
    isplitl [H0]; · iexact H0
    isplitl [H1]; · iexists d1; iexact H1
    isplitl [H2]; · iexists d2; iexact H2
    iexists d3; iexact H3
  · by_cases h48 : t.val < 48
    · -- blocks 1 … 47
      have hA : ¬atFirst (grid0.coords t) := fun h => h0 ((atFirst_iff t).mp h)
      have hB : atInner (grid0.coords t) := (atInner_iff t).mpr h48
      have hC : ¬atLast (grid0.coords t) := fun h => by have := (atLast_iff t).mp h; omega
      rw [leaves_3_idle m c t (by omega), accAt_inner m c t h0 h48]
      simp only [before_0, before_1, before_2, before_3]
      rw [PhiS_castSucc m c t, PhiS_pos m c _ _ h0]
      iintro ⟨⟨HS, Hg⟩, Ho, ⟨%d0, H0⟩, ⟨%d1, H1⟩, ⟨%d2, H2⟩, ⟨%d3, H3⟩⟩
      iapply ((runInner (F := F) c (grid0.coords t) (ms0 t) (hs0 t) (ms1 t) (hs1 t) (ms2 t) (hs2 t) (ms3 t) (hs3 t) accM (Memref.isWhole_whole _) hA hB hC
        (win0_1.fill (grid0.coords t) d1 (iblk m c 1 t)) (win0_2.fill (grid0.coords t) d2 (iblk m c 2 t)) _).2 (iblk m c 0 t) d3 Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro
          refine (View.read_writes_of_cover _ _ accV accV.junk _ (coverInner c _ _ _ _ _ _ _ _ _ _ _ hA hB hC _ _ _)).trans ?_
          refine (leftInner_eq (F := F) c _ _ _ _ _ _ _ _ _ _ _ hA hB hC _ _ _).trans ?_
          rw [ohFull m c t h48 d1, cfFull m c t h48 d2]
        iexact Hg
      isplitl [Ho]; · iexact Ho
      isplitl [H0]; · iexact H0
      isplitl [H1]; · iexists d1; iexact H1
      isplitl [H2]; · iexists d2; iexact H2
      iexists d3; iexact H3
    · -- block 48
      have h48' : t.val = 48 := by omega
      have hA : ¬atFirst (grid0.coords t) := fun h => h0 ((atFirst_iff t).mp h)
      have hB : ¬atInner (grid0.coords t) := fun h => h48 ((atInner_iff t).mp h)
      have hC : atLast (grid0.coords t) := (atLast_iff t).mpr h48'
      rw [leaves_3_last m c t h48', after_3, accAt_last m c t h0 h48]
      simp only [before_0, before_1, before_2, before_3]
      rw [PhiS_castSucc m c t, PhiS_pos m c _ _ h0]
      iintro ⟨⟨HS, Hg⟩, Ho, ⟨%d0, H0⟩, ⟨%d1, H1⟩, ⟨%d2, H2⟩, ⟨%d3, H3⟩⟩
      iapply ((runLast (F := F) c (grid0.coords t) (ms0 t) (hs0 t) (ms1 t) (hs1 t) (ms2 t) (hs2 t) (ms3 t) (hs3 t) accM (Memref.isWhole_whole _) hA hB hC
        (iblk m c 0 t) (win0_1.fill (grid0.coords t) d1 (iblk m c 1 t)) (win0_2.fill (grid0.coords t) d2 (iblk m c 2 t)) _).2.2 Set.univ _)
      isplitl [H0]; · iexact H0
      isplitl [H1]; · iexact H1
      isplitl [H2]; · iexact H2
      isplitl [H3]; · iexists d3; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro
          refine (View.read_writes_of_cover _ _ accV accV.junk _ (coverLastAcc c _ _ _ _ _ _ _ _ _ _ _ hA hB hC _ _ _ _)).trans ?_
          refine (leftLast_eq (F := F) c _ _ _ _ _ _ _ _ _ _ _ hA hB hC _ _ _ _).trans ?_
          rw [headOh_fill m c t h48' d1, headCf_fill m c t h48' d2]
        iexact Hg
      isplitl [Ho]; · iexact Ho
      isplitl [H0]; · iexact H0
      isplitl [H1]; · iexists d1; iexact H1
      isplitl [H2]; · iexists d2; iexact H2
      unfold owns; iexists _; isplitr
      swap; · iexact H3
      ipureintro
      refine (View.read_writes_of_cover _ _ resV resV.junk _ (coverLastRes c _ _ _ _ _ _ _ _ _ _ _ hA hB hC _ _ _ _)).trans ?_
      refine (scoresLast_eq (F := F) c _ _ _ _ _ _ _ _ _ _ _ hA hB hC _ _ _ _).trans ?_
      rw [headOh_fill m c t h48' d1, headCf_fill m c t h48' d2]

/-- The loop's body obligation, at every block. -/
theorem body_obligation (c : Dev nD) : BodyObligationLoose (dats (F := F) m 0 c) (defs₀ (F := F)) Variants.none () Set.univ := fun t => by
  rw [bigSep_W0, bigSep_W0]
  exact sound_body m c t

/-! ## The run and the frame -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N49; omega), PhiA_eq]
  iintro ⟨HS, Hg⟩
  isplitl [HS]
  · iexists _; iexact HS
  iexact Hg

set_option backward.isDefEq.respectTransparency.types false in
/-- Every weakly fair execution of the program terminates, with every array of the sweep at what the proof data
    computes and every other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its three arguments as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Sweep

end
-- ==== Proof.SweepStagedIdeal.lean ====
/-
  The staged blocks, the feature block and the final result, read at coordinates.

  Block t of onehotᵀ is rows 2048 t, …, 2048 t + 2047 of the [100000, 1024] array, block t of coefᵀ is columns
  2048 t, …, 2048 t + 2047 of the [16, 100000] array, as far as they exist: for t < 48 all 2048 of them, for
  t = 48 the first 1696 (2048 · 48 + 1696 = 100000). The feature window's block is the whole [26, 16, 1024]
  array at every point. The result window's block is the whole [26, 1024] array, written back after point 48
  only, so the result array ends holding what the last point stored.
-/
import proofs.«154908_g48799418417398_cont_8to1_c_1139_22_alg».proof.Proof.SweepFrameIdeal
import Idealize.ShloMosaic.Lib.ValueIdx
import Idealize.ShloMosaic.Lib.Pipeline.Value

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

variable (m : (ℓ : Loc nD τ sig) → Buf (Elt F) ℓ)

/-! ## Where each window's block sits in its array -/

/-- The feature window's block index is 0 on every axis, at every point. -/
theorem xIndex : ∀ t : Fin cfg0.N, ∀ a, win0_0.index t a = 0 :=
  (by decide +kernel : ∀ t : Fin grid0.N, ∀ a, win0_0.index t a = 0)
/-- Block t of onehotᵀ is the t-th block of rows, all columns. -/
theorem ohIndex : ∀ t : Fin cfg0.N, win0_1.index t 0 = t.val ∧ win0_1.index t 1 = 0 :=
  (by decide +kernel : ∀ t : Fin grid0.N, win0_1.index t 0 = t.val ∧ win0_1.index t 1 = 0)
/-- Block t of coefᵀ is all rows, the t-th block of columns. -/
theorem cfIndex : ∀ t : Fin cfg0.N, win0_2.index t 0 = 0 ∧ win0_2.index t 1 = t.val :=
  (by decide +kernel : ∀ t : Fin grid0.N, win0_2.index t 0 = 0 ∧ win0_2.index t 1 = t.val)

/-! ## The blocks as the fetches read them -/

/-- The part of block t of onehotᵀ inside the array, at (y₀, y₁), is the array at (2048 t + y₀, y₁). -/
theorem ohBlock_apply (c : Dev nD) (t : Fin cfg0.N) (y : (win0_1.xblock (grid0.coords t)).Idx) (j : S100000x1024.Idx)
    (h0 : (j 0).val = 2048 * t.val + (y 0).val) (h1 : (j 1).val = (y 1).val) :
    iblk (F := F) m c 1 t y = (V m c main_v0 : S100000x1024.Idx → Elt F .f32) j := by
  unfold iblk
  rw [View.read_apply]
  show (V m c main_v0 : S100000x1024.Idx → Elt F .f32) _ = (V m c main_v0 : S100000x1024.Idx → Elt F .f32) j
  refine congrArg (V m c main_v0 : S100000x1024.Idx → Elt F .f32) (funext fun a => Fin.ext ?_)
  match a with
  | ⟨0, _⟩ => show win0_1.index t 0 * 2048 + 1 * (y 0).val = (j 0).val; rw [(ohIndex t).1, h0]; omega
  | ⟨1, _⟩ => show win0_1.index t 1 * 1024 + 1 * (y 1).val = (j 1).val; rw [(ohIndex t).2, h1]; omega

/-- The part of block t of coefᵀ inside the array, at (y₀, y₁), is the array at (y₀, 2048 t + y₁). -/
theorem cfBlock_apply (c : Dev nD) (t : Fin cfg0.N) (y : (win0_2.xblock (grid0.coords t)).Idx) (j : S16x100000.Idx)
    (h0 : (j 0).val = (y 0).val) (h1 : (j 1).val = 2048 * t.val + (y 1).val) :
    iblk (F := F) m c 2 t y = (V m c main_v1 : S16x100000.Idx → Elt F .f32) j := by
  unfold iblk
  rw [View.read_apply]
  show (V m c main_v1 : S16x100000.Idx → Elt F .f32) _ = (V m c main_v1 : S16x100000.Idx → Elt F .f32) j
  refine congrArg (V m c main_v1 : S16x100000.Idx → Elt F .f32) (funext fun a => Fin.ext ?_)
  match a with
  | ⟨0, _⟩ => show win0_2.index t 0 * 16 + 1 * (y 0).val = (j 0).val; rw [(cfIndex t).1, h0]; omega
  | ⟨1, _⟩ => show win0_2.index t 1 * 2048 + 1 * (y 1).val = (j 1).val; rw [(cfIndex t).2, h1]; omega

/-- The staged block t of onehotᵀ at (k, n), for a user 2048 t + k that exists, is onehotᵀ[2048 t + k, n]. -/
theorem ohStaged_apply (c : Dev nD) (t : Fin cfg0.N) (k : Fin 2048) (n : Fin 1024) (hk : 2048 * t.val + k.val < 100000) :
    ohStaged (F := F) m c t (ix2 k n)
      = (V m c main_v0 : S100000x1024.Idx → Elt F .f32) (ix2 ⟨2048 * t.val + k.val, hk⟩ n) := by
  have hN : t.val < 49 := lt_of_lt_of_eq t.isLt N49
  have hm : win0_1.moved (grid0.coords t) (ix2 k n) = true :=
    (win0_1.moved_iff _ _).mpr fun a => by
      by_cases h : t.val < 48
      · rw [ohSize_full t h a]; exact ((ix2 k n : S2048x1024.Idx) a).isLt
      · have h48 : t.val = 48 := by omega
        rw [ohSize_last t h48 a]
        match a with
        | ⟨0, _⟩ => show k.val < 1696; omega
        | ⟨1, _⟩ => show n.val < 1024; exact n.isLt
  unfold ohStaged Window.fill
  rw [dif_pos hm]
  exact ohBlock_apply m c t _ _ rfl rfl

/-- The staged block t of coefᵀ at (p, k), for a user 2048 t + k that exists, is coefᵀ[p, 2048 t + k]. -/
theorem cfStaged_apply (c : Dev nD) (t : Fin cfg0.N) (p : Fin 16) (k : Fin 2048) (hk : 2048 * t.val + k.val < 100000) :
    cfStaged (F := F) m c t (ix2 p k)
      = (V m c main_v1 : S16x100000.Idx → Elt F .f32) (ix2 p ⟨2048 * t.val + k.val, hk⟩) := by
  have hN : t.val < 49 := lt_of_lt_of_eq t.isLt N49
  have hm : win0_2.moved (grid0.coords t) (ix2 p k) = true :=
    (win0_2.moved_iff _ _).mpr fun a => by
      by_cases h : t.val < 48
      · rw [cfSize_full t h a]; exact ((ix2 p k : S16x2048.Idx) a).isLt
      · have h48 : t.val = 48 := by omega
        rw [cfSize_last t h48 a]
        match a with
        | ⟨0, _⟩ => show p.val < 16; exact p.isLt
        | ⟨1, _⟩ => show k.val < 1696; omega
  unfold cfStaged Window.fill
  rw [dif_pos hm]
  exact cfBlock_apply m c t _ _ rfl rfl

/-- The feature window's block is the whole array: at (i, p, n) it is xᵀ[i, p, n]. -/
theorem xBlock_apply (c : Dev nD) (t : Fin cfg0.N) (i : Fin 26) (p : Fin 16) (n : Fin 1024) :
    iblk (F := F) m c 0 t (ix3 i p n) = (V m c main_v2 : S26x16x1024.Idx → Elt F .f32) (ix3 i p n) := by
  unfold iblk
  rw [View.read_apply]
  show (V m c main_v2 : S26x16x1024.Idx → Elt F .f32) _ = (V m c main_v2 : S26x16x1024.Idx → Elt F .f32) (ix3 i p n)
  refine congrArg (V m c main_v2 : S26x16x1024.Idx → Elt F .f32) (funext fun a => Fin.ext ?_)
  match a with
  | ⟨0, _⟩ => show win0_0.index t 0 * 26 + 1 * i.val = i.val; rw [xIndex t 0]; omega
  | ⟨1, _⟩ => show win0_0.index t 1 * 16 + 1 * p.val = p.val; rw [xIndex t 1]; omega
  | ⟨2, _⟩ => show win0_0.index t 2 * 1024 + 1 * n.val = n.val; rw [xIndex t 2]; omega

/-! ## The leading 1696 users of a staged block -/

/-- The leading 1696 rows of a [2048, 1024] block, at (k, n), are the block at (k, n). -/
theorem headOh_apply (X : Vec F S2048x1024 .f32) (k : Fin 1696) (n : Fin 1024) :
    headOh X (ix2 k n) = X (ix2 ⟨k.val, Nat.lt_trans k.isLt (by norm_num)⟩ n) := by
  show X ((Rect.unit (s := S2048x1024) ![0, 0] S1696x1024.size inb_S2048x1024_S1696x1024_0_0).idx (ix2 k n)) = _
  refine congrArg X (funext fun a => Fin.ext ?_)
  match a with
  | ⟨0, _⟩ => show 0 + 1 * k.val = k.val; omega
  | ⟨1, _⟩ => show 0 + 1 * n.val = n.val; omega

/-- The leading 1696 columns of a [16, 2048] block, at (p, k), are the block at (p, k). -/
theorem headCf_apply (X : Vec F S16x2048 .f32) (p : Fin 16) (k : Fin 1696) :
    headCf X (ix2 p k) = X (ix2 p ⟨k.val, Nat.lt_trans k.isLt (by norm_num)⟩) := by
  show X ((Rect.unit (s := S16x2048) ![0, 0] S16x1696.size inb_S16x2048_S16x1696_0_0).idx (ix2 p k)) = _
  refine congrArg X (funext fun a => Fin.ext ?_)
  match a with
  | ⟨0, _⟩ => show 0 + 1 * p.val = p.val; omega
  | ⟨1, _⟩ => show 0 + 1 * k.val = k.val; omega

/-! ## The result array after the run -/

/-- The result window's block index is 0 on both axes, at every point. -/
theorem resIndex : ∀ t : Fin cfg0.N, ∀ a, win0_3.index t a = 0 :=
  (by decide +kernel : ∀ t : Fin grid0.N, ∀ a, win0_3.index t a = 0)

/-- The only point after which the result is written back is point 48. -/
theorem flush3_eq (t : Fin cfg0.N) (hf : (cfg0.win 3).flush t = true) : t = ⟨48, by rw [N49]; norm_num⟩ := by
  have h := (flush0_3 t).mp hf
  have hN : t.val < 49 := lt_of_lt_of_eq t.isLt N49
  exact Fin.ext (by show t.val = 48; omega)

/-- The result array ends holding what the last point stored: the features contracted with the accumulator after
    block 48. Point 48 is the one write-back; its block is the whole array, so it writes every element, and reading
    a whole-array function through it gives the function back. -/
theorem finalRes (c : Dev nD) :
    ((dats (F := F) m 0 c).arrAt 3 cfg0.N : S26x1024.Idx → Elt F .f32)
      = k0_pay4 (iblk m c 0 ⟨48, by rw [N49]; norm_num⟩) (accAt m c 48 (by rw [N49]; norm_num)) := by
  refine (dats m 0 c).arrAt_eq_of_cover 3
    (k0_pay4 (iblk m c 0 ⟨48, by rw [N49]; norm_num⟩) (accAt m c 48 (by rw [N49]; norm_num))) (fun t hf => ?_) (fun i => ?_)
  · obtain rfl := flush3_eq t hf
    show (cfg0.win 3).cut (grid0.coords _) ((dats m 0 c).after 3 _) = _
    rw [after_3]
    funext y
    rw [View.read_apply]
    show k0_pay4 _ _ _ = k0_pay4 _ _ _
    refine congrArg (k0_pay4 (iblk m c 0 ⟨48, by rw [N49]; norm_num⟩) (accAt m c 48 (by rw [N49]; norm_num)))
      (funext fun a => Fin.ext ?_)
    match a with
    | ⟨0, _⟩ => show (y 0).val = win0_3.index _ 0 * 26 + 1 * (y 0).val; rw [resIndex _ 0]; omega
    | ⟨1, _⟩ => show (y 1).val = win0_3.index _ 1 * 1024 + 1 * (y 1).val; rw [resIndex _ 1]; omega
  · have h48 : 48 < cfg0.N := by rw [N49]; norm_num
    refine ⟨⟨48, h48⟩, (flush0_3 _).mpr rfl, ?_⟩
    show i ∈ ((View.whole main_v3).slice (win0_3.rect ⟨48, h48⟩)).set
    rw [View.set_slice_whole, Rect.mem_set_unit]
    intro a
    have h0 : (i 0 : Nat) < 26 := (i 0).isLt
    have h1 : (i 1 : Nat) < 1024 := (i 1).isLt
    match a with
    | ⟨0, _⟩ =>
      show win0_3.index _ 0 * 26 ≤ (i 0 : Nat) ∧ (i 0 : Nat) < win0_3.index _ 0 * 26 + 26
      rw [resIndex _ 0]; omega
    | ⟨1, _⟩ =>
      show win0_3.index _ 1 * 1024 ≤ (i 1 : Nat) ∧ (i 1 : Nat) < win0_3.index _ 1 * 1024 + 1024
      rw [resIndex _ 1]; omega

end Cert.KernelIdeal.Sweep

end
-- ==== Proof.PayloadsIdeal.lean ====
/-
  The kernel body's four stored values, read at an index, over the extended reals.

  The body keeps a [16, 1024] accumulator acc[p, n] (parameter p, trip n). It first stores zero; each block step
  stores acc[p, n] + Σ_k coefBlock[p, k] · onehotBlock[k, n], the product of a [16, K] block of coefficients with
  a [K, 1024] block of one-hot rows into a zero accumulator, with K = 2048 for a full block and K = 1696 for the
  last one; the last step stores out[i, n] = Σ_p x[i, p, n] · acc[p, n], the sum over the parameter axis of the
  features times the accumulator's row broadcast over the 26 items. The casts between equal shapes change nothing.
-/
import proofs.«154908_g48799418417398_cont_8to1_c_1139_22_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Score.Pay

open Cert.KernelIdeal Cert.KernelIdeal.Gen Idealize.ShloMosaic Idealize.ShloMosaic.ValueIdx

/-! ## A [16, K] by [K, 1024] product into a zero accumulator, K = 2048 -/

theorem lhs2048_0 (j : S16x1024.Idx) (q : dot_S16x2048_S2048x1024_S16x1024_1_0_0_1_n_n.contr.Idx) :
    (dot_S16x2048_S2048x1024_S16x1024_1_0_0_1_n_n.lhsIdx j q 0).val = (j 0).val := by
  unfold DotDims.lhsIdx
  rw [dif_neg (show ¬(0 : Fin S16x2048.rank) ∈ dot_S16x2048_S2048x1024_S16x1024_1_0_0_1_n_n.lhsBatch by decide),
    dif_pos (show (0 : Fin S16x2048.rank) ∈ dot_S16x2048_S2048x1024_S16x1024_1_0_0_1_n_n.lhsNonContracting by decide)]
  rfl
theorem lhs2048_1 (j : S16x1024.Idx) (q : dot_S16x2048_S2048x1024_S16x1024_1_0_0_1_n_n.contr.Idx) :
    (dot_S16x2048_S2048x1024_S16x1024_1_0_0_1_n_n.lhsIdx j q 1).val = (q ⟨0, by decide⟩).val :=
  dot_S16x2048_S2048x1024_S16x1024_1_0_0_1_n_n.lhsIdx_val_of_single rfl j q
theorem rhs2048_0 (j : S16x1024.Idx) (q : dot_S16x2048_S2048x1024_S16x1024_1_0_0_1_n_n.contr.Idx) :
    (dot_S16x2048_S2048x1024_S16x1024_1_0_0_1_n_n.rhsIdx j q 0).val = (q ⟨0, by decide⟩).val :=
  dot_S16x2048_S2048x1024_S16x1024_1_0_0_1_n_n.rhsIdx_val_of_single rfl j q
theorem rhs2048_1 (j : S16x1024.Idx) (q : dot_S16x2048_S2048x1024_S16x1024_1_0_0_1_n_n.contr.Idx) :
    (dot_S16x2048_S2048x1024_S16x1024_1_0_0_1_n_n.rhsIdx j q 1).val = (j 1).val := by
  unfold DotDims.rhsIdx
  rw [dif_neg (show ¬(1 : Fin S2048x1024.rank) ∈ dot_S16x2048_S2048x1024_S16x1024_1_0_0_1_n_n.rhsBatch by decide),
    dif_pos (show (1 : Fin S2048x1024.rank) ∈ dot_S16x2048_S2048x1024_S16x1024_1_0_0_1_n_n.rhsNonContracting by decide)]
  rfl

/-- The product of a [16, 2048] block with a [2048, 1024] block into the zero accumulator, at (p, n), is
    Σ_k a[p, k] · b[k, n]. -/
theorem matmul2048_apply (a : FVec Ideal S16x2048 .f32) (b : FVec Ideal S2048x1024 .f32) (p : Fin 16) (n : Fin 1024) :
    matmul dot_S16x2048_S2048x1024_S16x1024_1_0_0_1_n_n none a b (constant (F := Ideal) S16x1024 .f32 0x00000000#32) (ix2 p n)
      = ∑ k : Fin 2048, a (ix2 p k) * b (ix2 k n) := by
  refine (Ideal.matmul_constant_zero_apply dot_S16x2048_S2048x1024_S16x1024_1_0_0_1_n_n none a b (ix2 p n)).trans ?_
  rw [← Equiv.sum_comp (contrEquiv1 dot_S16x2048_S2048x1024_S16x1024_1_0_0_1_n_n 2048 rfl rfl).symm]
  refine Finset.sum_congr rfl fun k _ => ?_
  have hk := contrEquiv1_symm_val dot_S16x2048_S2048x1024_S16x1024_1_0_0_1_n_n 2048 rfl rfl k
  have el : dot_S16x2048_S2048x1024_S16x1024_1_0_0_1_n_n.lhsIdx (ix2 p n)
      ((contrEquiv1 dot_S16x2048_S2048x1024_S16x1024_1_0_0_1_n_n 2048 rfl rfl).symm k) = ix2 p k :=
    funext fun c => Fin.ext (by
      match c with
      | ⟨0, _⟩ => exact lhs2048_0 _ _
      | ⟨1, _⟩ => exact (lhs2048_1 _ _).trans hk)
  have er : dot_S16x2048_S2048x1024_S16x1024_1_0_0_1_n_n.rhsIdx (ix2 p n)
      ((contrEquiv1 dot_S16x2048_S2048x1024_S16x1024_1_0_0_1_n_n 2048 rfl rfl).symm k) = ix2 k n :=
    funext fun c => Fin.ext (by
      match c with
      | ⟨0, _⟩ => exact (rhs2048_0 _ _).trans hk
      | ⟨1, _⟩ => exact rhs2048_1 _ _)
  rw [el, er]

/-- A full block step stores the accumulator plus the block's product: at (p, n),
    acc[p, n] + Σ_k coefBlock[p, k] · onehotBlock[k, n], over the block's 2048 users. -/
theorem pay2_apply (v9 : Vec Ideal S16x1024 .f32) (v10 : Vec Ideal S16x2048 .f32) (v12 : Vec Ideal S2048x1024 .f32)
    (p : Fin 16) (n : Fin 1024) :
    k0_pay2 (F := Ideal) v9 v10 v12 (ix2 p n) = v9 (ix2 p n) + ∑ k : Fin 2048, v10 (ix2 p k) * v12 (ix2 k n) := by
  unfold k0_pay2
  simp only [shapeCast_self]
  exact congrArg (fun z => v9 (ix2 p n) + z) (matmul2048_apply v10 v12 p n)

/-! ## A [16, K] by [K, 1024] product into a zero accumulator, K = 1696 -/

theorem lhs1696_0 (j : S16x1024.Idx) (q : dot_S16x1696_S1696x1024_S16x1024_1_0_0_1_n_n.contr.Idx) :
    (dot_S16x1696_S1696x1024_S16x1024_1_0_0_1_n_n.lhsIdx j q 0).val = (j 0).val := by
  unfold DotDims.lhsIdx
  rw [dif_neg (show ¬(0 : Fin S16x1696.rank) ∈ dot_S16x1696_S1696x1024_S16x1024_1_0_0_1_n_n.lhsBatch by decide),
    dif_pos (show (0 : Fin S16x1696.rank) ∈ dot_S16x1696_S1696x1024_S16x1024_1_0_0_1_n_n.lhsNonContracting by decide)]
  rfl
theorem lhs1696_1 (j : S16x1024.Idx) (q : dot_S16x1696_S1696x1024_S16x1024_1_0_0_1_n_n.contr.Idx) :
    (dot_S16x1696_S1696x1024_S16x1024_1_0_0_1_n_n.lhsIdx j q 1).val = (q ⟨0, by decide⟩).val :=
  dot_S16x1696_S1696x1024_S16x1024_1_0_0_1_n_n.lhsIdx_val_of_single rfl j q
theorem rhs1696_0 (j : S16x1024.Idx) (q : dot_S16x1696_S1696x1024_S16x1024_1_0_0_1_n_n.contr.Idx) :
    (dot_S16x1696_S1696x1024_S16x1024_1_0_0_1_n_n.rhsIdx j q 0).val = (q ⟨0, by decide⟩).val :=
  dot_S16x1696_S1696x1024_S16x1024_1_0_0_1_n_n.rhsIdx_val_of_single rfl j q
theorem rhs1696_1 (j : S16x1024.Idx) (q : dot_S16x1696_S1696x1024_S16x1024_1_0_0_1_n_n.contr.Idx) :
    (dot_S16x1696_S1696x1024_S16x1024_1_0_0_1_n_n.rhsIdx j q 1).val = (j 1).val := by
  unfold DotDims.rhsIdx
  rw [dif_neg (show ¬(1 : Fin S1696x1024.rank) ∈ dot_S16x1696_S1696x1024_S16x1024_1_0_0_1_n_n.rhsBatch by decide),
    dif_pos (show (1 : Fin S1696x1024.rank) ∈ dot_S16x1696_S1696x1024_S16x1024_1_0_0_1_n_n.rhsNonContracting by decide)]
  rfl

/-- The product of a [16, 1696] block with a [1696, 1024] block into the zero accumulator, at (p, n), is
    Σ_k a[p, k] · b[k, n]. -/
theorem matmul1696_apply (a : FVec Ideal S16x1696 .f32) (b : FVec Ideal S1696x1024 .f32) (p : Fin 16) (n : Fin 1024) :
    matmul dot_S16x1696_S1696x1024_S16x1024_1_0_0_1_n_n none a b (constant (F := Ideal) S16x1024 .f32 0x00000000#32) (ix2 p n)
      = ∑ k : Fin 1696, a (ix2 p k) * b (ix2 k n) := by
  refine (Ideal.matmul_constant_zero_apply dot_S16x1696_S1696x1024_S16x1024_1_0_0_1_n_n none a b (ix2 p n)).trans ?_
  rw [← Equiv.sum_comp (contrEquiv1 dot_S16x1696_S1696x1024_S16x1024_1_0_0_1_n_n 1696 rfl rfl).symm]
  refine Finset.sum_congr rfl fun k _ => ?_
  have hk := contrEquiv1_symm_val dot_S16x1696_S1696x1024_S16x1024_1_0_0_1_n_n 1696 rfl rfl k
  have el : dot_S16x1696_S1696x1024_S16x1024_1_0_0_1_n_n.lhsIdx (ix2 p n)
      ((contrEquiv1 dot_S16x1696_S1696x1024_S16x1024_1_0_0_1_n_n 1696 rfl rfl).symm k) = ix2 p k :=
    funext fun c => Fin.ext (by
      match c with
      | ⟨0, _⟩ => exact lhs1696_0 _ _
      | ⟨1, _⟩ => exact (lhs1696_1 _ _).trans hk)
  have er : dot_S16x1696_S1696x1024_S16x1024_1_0_0_1_n_n.rhsIdx (ix2 p n)
      ((contrEquiv1 dot_S16x1696_S1696x1024_S16x1024_1_0_0_1_n_n 1696 rfl rfl).symm k) = ix2 k n :=
    funext fun c => Fin.ext (by
      match c with
      | ⟨0, _⟩ => exact (rhs1696_0 _ _).trans hk
      | ⟨1, _⟩ => exact rhs1696_1 _ _)
  rw [el, er]

/-- The last block step stores the accumulator plus the block's product: at (p, n),
    acc[p, n] + Σ_k coefBlock[p, k] · onehotBlock[k, n], over the block's 1696 users. -/
theorem pay3_apply (v9 : Vec Ideal S16x1024 .f32) (v10 : Vec Ideal S16x1696 .f32) (v12 : Vec Ideal S1696x1024 .f32)
    (p : Fin 16) (n : Fin 1024) :
    k0_pay3 (F := Ideal) v9 v10 v12 (ix2 p n) = v9 (ix2 p n) + ∑ k : Fin 1696, v10 (ix2 p k) * v12 (ix2 k n) := by
  unfold k0_pay3
  simp only [shapeCast_self]
  exact congrArg (fun z => v9 (ix2 p n) + z) (matmul1696_apply v10 v12 p n)

/-! ## The lane sum over the parameter axis -/

/-- The index the sum over axis 1 of a [26, 16, 1024] array inserts at (i, n) and position p is (i, p, n). -/
theorem lift_ix (i : Fin 26) (n : Fin 1024) (p : Fin 16) :
    reduces_S26x16x1024_S26x1024.lift (ix2 i n) p = ix3 i p n := by
  funext c
  refine Fin.ext ?_
  match c with
  | ⟨0, _⟩ => rfl
  | ⟨1, _⟩ => rfl
  | ⟨2, _⟩ => rfl

/-- The accumulator viewed as [1, 16, 1024] and broadcast over the 26 items reads, at (i, p, n), acc[p, n]. -/
theorem bcast_apply (v21 : FVec Ideal S16x1024 .f32) (i : Fin 26) (p : Fin 16) (n : Fin 1024) :
    broadcastTo S26x16x1024 (shapeCast S1x16x1024 v21 shapeCasts_S16x1024_S1x16x1024) broadcasts_S1x16x1024_S26x16x1024
      (ix3 i p n) = v21 (ix2 p n) := by
  refine (broadcastTo_apply _ broadcasts_S1x16x1024_S26x16x1024 (ix3 i p n) (ix3 (0 : Fin 1) p n) fun c => ?_).trans ?_
  · match c with
    | ⟨0, _⟩ => rfl
    | ⟨1, _⟩ => rfl
    | ⟨2, _⟩ => rfl
  · exact shapeCast_ab_1ab_apply v21 shapeCasts_S16x1024_S1x16x1024 (0 : Fin 1) p n

/-- The last step stores, at (i, n), Σ_p x[i, p, n] · acc[p, n]: the sum starts from the zero word, and each term is
    the product of the features with the accumulator's row broadcast over the items. -/
theorem pay4_apply (v19 : Vec Ideal S26x16x1024 .f32) (v21 : Vec Ideal S16x1024 .f32) (i : Fin 26) (n : Fin 1024) :
    k0_pay4 (F := Ideal) v19 v21 (ix2 i n) = ∑ p : Fin 16, v19 (ix3 i p n) * v21 (ix2 p n) := by
  unfold k0_pay4
  simp only [shapeCast_self]
  refine (Ideal.multiReduction_add_single _ 0x00000000#32 reduces_S26x16x1024_S26x1024 (.inl rfl) rfl (ix2 i n)).trans ?_
  refine Finset.sum_congr rfl fun (p : Fin 16) _ => ?_
  show v19 (reduces_S26x16x1024_S26x1024.lift (ix2 i n) p)
      * broadcastTo S26x16x1024 (shapeCast S1x16x1024 v21 shapeCasts_S16x1024_S1x16x1024)
          broadcasts_S1x16x1024_S26x16x1024 (reduces_S26x16x1024_S26x1024.lift (ix2 i n) p) = _
  rw [lift_ix i n p, bcast_apply v21 i p n]

/-! ## The first store -/

/-- The first step stores zero everywhere. -/
theorem pay1_apply (j : S16x1024.Idx) : k0_pay1 (F := Ideal) j = 0 := by
  unfold k0_pay1
  simp only [shapeCast_self]
  exact Ideal.ofBits_zero_f32

end Cert.Score.Pay

end
-- ==== Proof.AroundIdeal.lean ====
/-
  The host lines around the kernel's region are four transposes.

  Before the region the one-hot array [1024, 100000] is transposed to [100000, 1024], the coefficient array
  [100000, 16] to [16, 100000], and the feature array [1024, 26, 16] is permuted to [26, 16, 1024] (the trip axis
  last). After the region the kernel's [26, 1024] result is transposed to [1024, 26]. Read at an index, each only
  permutes the coordinates:
      onehotT[u, n] = onehot[n, u],  coefT[p, u] = coef[u, p],  xT[i, p, n] = x[n, i, p],  out[n, i] = res[i, n].
-/
import proofs.«154908_g48799418417398_cont_8to1_c_1139_22_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.Score.Around

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Rounds
open Idealize.ShloMosaic.StableHlo

variable {F : FTy → Type} [FloatOps F]
variable (m : (ℓ : Loc nD τ sig) → Buf (Elt F) ℓ)

/-! ## The arrays the region finds, as the transposes of the arguments -/

/-- The region finds, in the first transposed buffer, the one-hot argument transposed. -/
theorem entry_v0 (c : Dev nD) :
    (V m c main_v0 : S100000x1024.Idx → Elt F .f32)
      = transpose S100000x1024 [1, 0] (m ((c : Thread nD τ).loc main_arg1)) transposes_S1024x100000_S100000x1024_1_0 := by
  show StableHlo.after hostOps0 (fun b => m (c, b)) (Proc.devRef .tc main_v0) = _
  after_results

/-- The region finds, in the second transposed buffer, the coefficient argument transposed. -/
theorem entry_v1 (c : Dev nD) :
    (V m c main_v1 : S16x100000.Idx → Elt F .f32)
      = transpose S16x100000 [1, 0] (m ((c : Thread nD τ).loc main_arg2)) transposes_S100000x16_S16x100000_1_0 := by
  show StableHlo.after hostOps0 (fun b => m (c, b)) (Proc.devRef .tc main_v1) = _
  after_results

/-- The region finds, in the third buffer, the feature argument with its trip axis moved last. -/
theorem entry_v2 (c : Dev nD) :
    (V m c main_v2 : S26x16x1024.Idx → Elt F .f32)
      = transpose S26x16x1024 [1, 2, 0] (m ((c : Thread nD τ).loc main_arg0)) transposes_S1024x26x16_S26x16x1024_1_2_0 := by
  show StableHlo.after hostOps0 (fun b => m (c, b)) (Proc.devRef .tc main_v2) = _
  after_results

/-! ## The same, read at coordinates -/

/-- onehotT[u, n] = onehot[n, u]. -/
theorem entry_v0_apply (c : Dev nD) (u : Fin 100000) (n : Fin 1024) :
    (V m c main_v0 : S100000x1024.Idx → Elt F .f32) (ix2 u n) = m ((c : Thread nD τ).loc main_arg1) (ix2 n u) := by
  rw [entry_v0]
  exact transpose_ix2_apply _ transposes_S1024x100000_S100000x1024_1_0 u n

/-- coefT[p, u] = coef[u, p]. -/
theorem entry_v1_apply (c : Dev nD) (p : Fin 16) (u : Fin 100000) :
    (V m c main_v1 : S16x100000.Idx → Elt F .f32) (ix2 p u) = m ((c : Thread nD τ).loc main_arg2) (ix2 u p) := by
  rw [entry_v1]
  exact transpose_ix2_apply _ transposes_S100000x16_S16x100000_1_0 p u

/-- xT[i, p, n] = x[n, i, p]: result axes 0, 1, 2 are the source's axes 1, 2, 0. -/
theorem entry_v2_apply (c : Dev nD) (i : Fin 26) (p : Fin 16) (n : Fin 1024) :
    (V m c main_v2 : S26x16x1024.Idx → Elt F .f32) (ix3 i p n) = m ((c : Thread nD τ).loc main_arg0) (ix3 n i p) := by
  rw [entry_v2]
  exact transpose_apply _ _ transposes_S1024x26x16_S26x16x1024_1_2_0 (ix3 i p n) (ix3 n i p)
    fun b => match b with | ⟨0, _⟩ => rfl | ⟨1, _⟩ => rfl | ⟨2, _⟩ => rfl

/-! ## After the region -/

/-- Whatever the proof data, the program's result buffer ends as the transpose of the kernel's result array as the
    region leaves it. -/
theorem tail_v4 (dats : (p : Fin 1) → (c : Dev nD) → Pipeline.Dat τ (Elt F) Unit ℕ (UR sig nD τ) ℕ (cfgs p) c) (c : Dev nD) :
    Pipeline.afterTail₀ cfgs dats 0 (V0 m) [hostOps1] c main_v4
      = transpose S1024x26 [1, 0] ((dats 0 c).arrAt 3 cfg0.N) transposes_S26x1024_S1024x26_1_0 := by
  unfold Pipeline.afterTail₀
  show StableHlo.after hostOps1 _ (Proc.devRef .tc main_v4) = _
  after_results
  exact congrArg (fun Y => transpose S1024x26 [1, 0] Y transposes_S26x1024_S1024x26_1_0)
    (Pipeline.withArrays_arr spec0 launch0.win.arr_inj c _ _ 3)

/-- out[n, i] = res[i, n]. -/
theorem tail_apply (Y : S26x1024.Idx → Elt F .f32) (n : Fin 1024) (i : Fin 26) :
    transpose S1024x26 [1, 0] Y transposes_S26x1024_S1024x26_1_0 (ix2 n i) = Y (ix2 i n) :=
  transpose_ix2_apply Y transposes_S26x1024_S1024x26_1_0 n i

end Cert.Score.Around

end
-- ==== Proof.BlockSum.lean ====
/-
  A sum over the first 100000 naturals, accumulated block by block.

  100000 = 48 · 2048 + 1696. Starting from zero and adding, for t = 0, …, 47, the sum of f over the 2048
  consecutive naturals from 2048 t on, and last the sum of f over the 1696 naturals from 2048 · 48 = 98304 on,
  gives the sum of f over all naturals below 100000. This holds in every additive commutative monoid: it is
  only the splitting of a range of naturals into consecutive ranges.
-/
import Mathlib.Algebra.BigOperators.Fin
import Mathlib.Algebra.BigOperators.Intervals

open scoped BigOperators

namespace Cert.Score

/-- The accumulator after `t` blocks: zero, then one block added per step; the blocks `0, …, 47` have 2048
    terms each, starting at `2048 t`, and every later block is taken with 1696 terms. -/
def blockAccum {M : Type*} [AddCommMonoid M] (f : ℕ → M) : ℕ → M
  | 0 => 0
  | (t+1) => blockAccum f t +
      (if t < 48 then ∑ k : Fin 2048, f (2048 * t + k.val) else ∑ k : Fin 1696, f (2048 * t + k.val))

/-- A block of `n` consecutive terms starting at `a`, appended to the sum over the naturals below `a`, is the
    sum over the naturals below `a + n`. -/
theorem sum_range_add_block {M : Type*} [AddCommMonoid M] (f : ℕ → M) (a n : ℕ) :
    ∑ u ∈ Finset.range a, f u + ∑ k : Fin n, f (a + k.val) = ∑ u ∈ Finset.range (a + n), f u := by
  rw [Fin.sum_univ_eq_sum_range (fun k => f (a + k)) n, Finset.sum_range_add]

/-- After `t ≤ 48` full blocks the accumulator is the sum of `f` over the naturals below `2048 t`. -/
theorem blockAccum_prefix {M : Type*} [AddCommMonoid M] (f : ℕ → M) :
    ∀ t : ℕ, t ≤ 48 → blockAccum f t = ∑ u ∈ Finset.range (2048 * t), f u
  | 0, _ => by simp [blockAccum]
  | (t+1), h => by
      have ht : t < 48 := by omega
      rw [blockAccum, if_pos ht, blockAccum_prefix f t (by omega), sum_range_add_block,
        show 2048 * t + 2048 = 2048 * (t + 1) by omega]

/-- After all 49 blocks (48 of 2048 terms and one of 1696) the accumulator is the sum of `f` over the naturals
    below 100000 = 48 · 2048 + 1696. -/
theorem blockAccum_full {M : Type*} [AddCommMonoid M] (f : ℕ → M) :
    blockAccum f 49 = ∑ u : Fin 100000, f u.val := by
  rw [show (49 : ℕ) = 48 + 1 from rfl, blockAccum, if_neg (by omega), blockAccum_prefix f 48 le_rfl,
    sum_range_add_block, Fin.sum_univ_eq_sum_range (fun u => f u) 100000]

end Cert.Score
-- ==== Proof.Spec.lean ====
/-
  The function both programs compute, stated once over the extended reals.

  For a trip `t`, an item `i` and a parameter `p`, the score is
      out[t, i] = Σ_p x[t, i, p] · (Σ_u coef[u, p] · onehot[t, u]),
  the inner sum being row `t` of `onehot · coef` (a dense "table lookup"), the outer one the
  contraction of that row with the item's feature vector. Both programs are arrangements of
  this double sum: one contracts the users in 49 consecutive blocks, the other in one piece.
-/
import Idealize.ShloMosaic.PureOps.Ideal
import Idealize.ShloMosaic.Lib.ValueIdx

noncomputable section

open scoped BigOperators

namespace Cert.Score

open Idealize.ShloMosaic Idealize.ShloMosaic.ValueIdx

/-- Row `t`, column `p` of `onehot · coef`: the sum over all users of `coef[u, p] · onehot[t, u]`. -/
def userCoef (oh : (⟨2, ![1024, 100000]⟩ : Shape).Idx → EReal) (cf : (⟨2, ![100000, 16]⟩ : Shape).Idx → EReal)
    (t : Fin 1024) (p : Fin 16) : EReal :=
  ∑ u : Fin 100000, cf (ix2 u p) * oh (ix2 t u)

/-- The score array: `out[t, i] = Σ_p x[t, i, p] · userCoef[t, p]`. -/
def score (x : (⟨3, ![1024, 26, 16]⟩ : Shape).Idx → EReal) (oh : (⟨2, ![1024, 100000]⟩ : Shape).Idx → EReal)
    (cf : (⟨2, ![100000, 16]⟩ : Shape).Idx → EReal) : (⟨2, ![1024, 26]⟩ : Shape).Idx → EReal :=
  fun j => ∑ p : Fin 16, x (ix3 (j 0) (j 1) p) * userCoef oh cf (j 0) p

theorem score_apply (x : (⟨3, ![1024, 26, 16]⟩ : Shape).Idx → EReal) (oh : (⟨2, ![1024, 100000]⟩ : Shape).Idx → EReal)
    (cf : (⟨2, ![100000, 16]⟩ : Shape).Idx → EReal) (t : Fin 1024) (i : Fin 26) :
    score x oh cf (ix2 t i) = ∑ p : Fin 16, x (ix3 t i p) * ∑ u : Fin 100000, cf (ix2 u p) * oh (ix2 t u) := rfl

end Cert.Score

end
-- ==== Proof.SweepValueIdeal.lean ====
/-
  The value of the sweep over the extended reals: the program's result is the score function.

  Entry (p, n) of the accumulator after block j is the sum, over the users of blocks 0 … j, of
  `coefᵀ[p, u] · onehotᵀ[u, n]`: each block adds its own users' terms to what the block before left, the last
  block the 1696 users that exist. After all 49 blocks that is the sum over all 100000 users — a range of
  naturals split into consecutive ranges, which needs only that addition is associative and commutative, so no
  finiteness of the inputs is used. The result's buffer then holds `Σ_p xᵀ[i, p, n] · acc[p, n]`, it is written
  back whole, and the transposes before and after the region turn this into
  `out[n, i] = Σ_p x[n, i, p] · Σ_u coef[u, p] · onehot[n, u]`.
-/
import proofs.«154908_g48799418417398_cont_8to1_c_1139_22_alg».proof.Proof.SweepStagedIdeal
import proofs.«154908_g48799418417398_cont_8to1_c_1139_22_alg».proof.Proof.PayloadsIdeal
import proofs.«154908_g48799418417398_cont_8to1_c_1139_22_alg».proof.Proof.AroundIdeal
import proofs.«154908_g48799418417398_cont_8to1_c_1139_22_alg».proof.Proof.BlockSum
import proofs.«154908_g48799418417398_cont_8to1_c_1139_22_alg».proof.Proof.Spec

set_option maxRecDepth 16384

noncomputable section

open scoped BigOperators

namespace Cert.KernelIdeal.Sweep

open Cert.KernelIdeal Cert.KernelIdeal.Gen Cert.Score
open Idealize.ShloMosaic Idealize.ShloMosaic.TcCoe Idealize.ShloMosaic.ValueIdx
open Idealize.SL Idealize.SL.Sem

variable (m : (ℓ : Loc nD τ sig) → Buf (Elt Ideal) ℓ)

/-- The region's three input arrays read at coordinates, as extended reals: `coefᵀ[p, u]`, `onehotᵀ[u, n]`, `xᵀ[i, p, n]`. -/
def cfT (c : Dev nD) (p : Fin 16) (u : Fin 100000) : EReal := (V m c main_v1 : S16x100000.Idx → Elt Ideal .f32) (ix2 p u)
def ohT (c : Dev nD) (u : Fin 100000) (n : Fin 1024) : EReal := (V m c main_v0 : S100000x1024.Idx → Elt Ideal .f32) (ix2 u n)
def xT (c : Dev nD) (i : Fin 26) (p : Fin 16) (n : Fin 1024) : EReal := (V m c main_v2 : S26x16x1024.Idx → Elt Ideal .f32) (ix3 i p n)

/-- User `u`'s term of entry (p, n): `coefᵀ[p, u] · onehotᵀ[u, n]` (zero past the last user, where nothing is summed). -/
def term (c : Dev nD) (p : Fin 16) (n : Fin 1024) (u : ℕ) : EReal :=
  if h : u < 100000 then cfT m c p ⟨u, h⟩ * ohT m c ⟨u, h⟩ n else 0

/-- A block inside the arrays contributes its 2048 users' terms. -/
theorem fullBlock_sum (c : Dev nD) (p : Fin 16) (n : Fin 1024) (t : Fin cfg0.N) (h : t.val < 48) :
    ∑ k : Fin 2048, cfStaged (F := Ideal) m c t (ix2 p k) * ohStaged (F := Ideal) m c t (ix2 k n)
      = ∑ k : Fin 2048, term m c p n (2048 * t.val + k.val) :=
  Finset.sum_congr rfl fun k _ => by
    have hk : 2048 * t.val + k.val < 100000 := by have := k.isLt; omega
    rw [cfStaged_apply m c t p k hk, ohStaged_apply m c t k n hk]
    unfold term; rw [dif_pos hk]; rfl

/-- The last block contributes the terms of the 1696 users it has. -/
theorem lastBlock_sum (c : Dev nD) (p : Fin 16) (n : Fin 1024) (t : Fin cfg0.N) (h : t.val = 48) :
    ∑ k : Fin 1696, headCf (cfStaged (F := Ideal) m c t) (ix2 p k) * headOh (ohStaged (F := Ideal) m c t) (ix2 k n)
      = ∑ k : Fin 1696, term m c p n (2048 * t.val + k.val) :=
  Finset.sum_congr rfl fun k _ => by
    have hk : 2048 * t.val + k.val < 100000 := by have := k.isLt; omega
    rw [headCf_apply, headOh_apply, cfStaged_apply m c t p _ hk, ohStaged_apply m c t _ n hk]
    unfold term; rw [dif_pos hk]; rfl

/-- THE ACCUMULATOR AT AN ENTRY: after block `j` it is the block-by-block sum of the terms of blocks 0 … j. -/
theorem accAt_apply (c : Dev nD) (p : Fin 16) (n : Fin 1024) :
    ∀ (j : ℕ) (hj : j < cfg0.N), accAt (F := Ideal) m c j hj (ix2 p n) = blockAccum (term m c p n) (j + 1) := by
  intro j
  induction j with
  | zero =>
    intro hj
    have e := accAt_first (F := Ideal) m c ⟨0, hj⟩ rfl
    rw [show accAt (F := Ideal) m c 0 hj = _ from e, Pay.pay2_apply, Pay.pay1_apply,
      fullBlock_sum m c p n ⟨0, hj⟩ (by norm_num)]
    show _ = blockAccum (term m c p n) 0 + (if 0 < 48 then _ else _)
    rw [if_pos (by norm_num)]
    rfl
  | succ j ih =>
    intro hj
    have hN : j + 1 < 49 := lt_of_lt_of_eq hj N49
    show _ = blockAccum (term m c p n) (j + 1) + (if j + 1 < 48 then _ else _)
    by_cases h : j + 1 < 48
    · have e := accAt_inner (F := Ideal) m c ⟨j + 1, hj⟩ (Nat.succ_ne_zero j) h
      rw [show accAt (F := Ideal) m c (j + 1) hj = _ from e, Pay.pay2_apply, fullBlock_sum m c p n ⟨j + 1, hj⟩ h, if_pos h]
      refine congrArg (fun z => z + _) ?_
      exact ih (Nat.lt_of_succ_lt hj)
    · have e := accAt_last (F := Ideal) m c ⟨j + 1, hj⟩ (Nat.succ_ne_zero j) h
      rw [show accAt (F := Ideal) m c (j + 1) hj = _ from e, Pay.pay3_apply,
        lastBlock_sum m c p n ⟨j + 1, hj⟩ (by show j + 1 = 48; omega), if_neg h]
      refine congrArg (fun z => z + _) ?_
      exact ih (Nat.lt_of_succ_lt hj)

/-- After the last block the entry is row `n`, column `p` of `onehot · coef`: the sum over all users. -/
theorem acc_full (c : Dev nD) (p : Fin 16) (n : Fin 1024) (h : 48 < cfg0.N) :
    accAt (F := Ideal) m c 48 h (ix2 p n)
      = userCoef (m ((c : Thread nD τ).loc main_arg1)) (m ((c : Thread nD τ).loc main_arg2)) n p := by
  rw [accAt_apply m c p n 48 h, blockAccum_full]
  unfold userCoef
  refine Finset.sum_congr rfl fun u _ => ?_
  unfold term
  rw [dif_pos u.isLt]
  unfold cfT ohT
  rw [Around.entry_v1_apply m c p ⟨u.val, u.isLt⟩, Around.entry_v0_apply m c ⟨u.val, u.isLt⟩ n]

/-- The result array after the region, at (i, n): the features contracted with the finished accumulator. -/
theorem res_apply (c : Dev nD) (i : Fin 26) (n : Fin 1024) :
    ((dats (F := Ideal) m 0 c).arrAt 3 cfg0.N : S26x1024.Idx → Elt Ideal .f32) (ix2 i n)
      = ∑ p : Fin 16, xT m c i p n * userCoef (m ((c : Thread nD τ).loc main_arg1)) (m ((c : Thread nD τ).loc main_arg2)) n p := by
  rw [finalRes m c]
  refine (Pay.pay4_apply _ _ i n).trans (Finset.sum_congr rfl fun p _ => ?_)
  rw [xBlock_apply, acc_full]
  rfl

/-- THE PROGRAM'S RESULT: what the lines after the region leave in the result array is the score function of the
    three arguments. -/
theorem result_eq (c : Dev nD) :
    Pipeline.afterTail₀ cfgs (dats (F := Ideal) m) 0 (V0 m) [hostOps1] c main_v4
      = score (m ((c : Thread nD τ).loc main_arg0)) (m ((c : Thread nD τ).loc main_arg1)) (m ((c : Thread nD τ).loc main_arg2)) := by
  rw [Around.tail_v4 m (dats (F := Ideal) m) c]
  funext j
  obtain ⟨n, i, rfl⟩ : ∃ (n : Fin 1024) (i : Fin 26), j = ix2 n i := ⟨j 0, j 1, eq_ix2 j⟩
  refine (Around.tail_apply _ n i).trans ?_
  refine (res_apply m c i n).trans ?_
  show _ = ∑ p : Fin 16, _ * userCoef _ _ n p
  refine Finset.sum_congr rfl fun p _ => ?_
  unfold xT
  rw [Around.entry_v2_apply m c i p n]

end Cert.KernelIdeal.Sweep

end
-- ==== Proof.RefScore.lean ====
/-
  The reference program's result, read index by index, is the score function.

  The reference forms cu[t, p] = Σ_u onehot[t, u] · coef[u, p] (one contraction over the users), views it as
  an array of shape [1024, 16, 1], contracts the feature vector x[t, i, ·] with it, and views the result of shape
  [1024, 26, 1] as [1024, 26]. The two views change no element: in row-major order the element (t, p, 0) of the
  first is the element (t, p) of cu, and the element (t, i) of the last is the element (t, i, 0) before it. So
      result[t, i] = Σ_p x[t, i, p] · (Σ_u onehot[t, u] · coef[u, p]),
  and each product of the inner sum is commuted to the order coef · onehot in which the score is written.
  Multiplication of extended reals is commutative; no finiteness is used.
-/
import proofs.«154908_g48799418417398_cont_8to1_c_1139_22_alg».proof.Defs
import proofs.«154908_g48799418417398_cont_8to1_c_1139_22_alg».proof.Proof.Gen.ReferenceIdeal.Read
import proofs.«154908_g48799418417398_cont_8to1_c_1139_22_alg».proof.Proof.Spec
import Idealize.ShloMosaic.Lib.ValueIdx

noncomputable section

open scoped BigOperators

namespace Cert.Score.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The index functions of the four stages, at an index given by its coordinates -/

/-- Viewing [1024, 26, 1] as [1024, 26]: the element (t, i) is the element (t, i, 0), because
    (26 t + i) / 26 = t and (26 t + i) mod 26 = i for i < 26. -/
theorem idx_v3 (t : Fin 1024) (i : Fin 26) : idx_main_v3 (ix2 t i) = ix3 t i (0 : Fin 1) := by
  funext a
  refine Fin.ext ?_
  have hi : i.val < 26 := i.isLt
  match a with
  | ⟨0, _⟩ => show (t.val * 26 + i.val) / 26 = t.val; omega
  | ⟨1, _⟩ => show (t.val * 26 + i.val) / 1 % 26 = i.val; omega
  | ⟨2, _⟩ => rfl

/-- The batched contraction reads the left operand x at (t, i, p) … -/
theorem lidx_v2 (t : Fin 1024) (i : Fin 26) (p : Fin 16) :
    lidx_main_v2 (ix3 t i (0 : Fin 1)) p = ix3 t i p := by
  funext a
  refine Fin.ext ?_
  match a with
  | ⟨0, _⟩ => rfl
  | ⟨1, _⟩ => rfl
  | ⟨2, _⟩ => rfl

/-- … and the right operand, the viewed cu, at (t, p, 0). -/
theorem ridx_v2 (t : Fin 1024) (i : Fin 26) (p : Fin 16) :
    ridx_main_v2 (ix3 t i (0 : Fin 1)) p = ix3 t p (0 : Fin 1) := by
  funext a
  refine Fin.ext ?_
  match a with
  | ⟨0, _⟩ => rfl
  | ⟨1, _⟩ => rfl
  | ⟨2, _⟩ => rfl

/-- Viewing [1024, 16] as [1024, 16, 1]: the element (t, p, 0) is the element (t, p), because
    (16 t + p) / 16 = t and (16 t + p) mod 16 = p for p < 16. -/
theorem idx_v1 (t : Fin 1024) (p : Fin 16) : idx_main_v1 (ix3 t p (0 : Fin 1)) = ix2 t p := by
  funext a
  refine Fin.ext ?_
  have hp : p.val < 16 := p.isLt
  match a with
  | ⟨0, _⟩ => show ((t.val * 16 + p.val) * 1 + 0) / 16 = t.val; omega
  | ⟨1, _⟩ => show ((t.val * 16 + p.val) * 1 + 0) % 16 = p.val; omega

/-- The contraction over the users reads onehot at (t, u) … -/
theorem lidx_v0 (t : Fin 1024) (p : Fin 16) (u : Fin 100000) : lidx_main_v0 (ix2 t p) u = ix2 t u := by
  funext a
  refine Fin.ext ?_
  match a with
  | ⟨0, _⟩ => rfl
  | ⟨1, _⟩ => rfl

/-- … and coef at (u, p). -/
theorem ridx_v0 (t : Fin 1024) (p : Fin 16) (u : Fin 100000) : ridx_main_v0 (ix2 t p) u = ix2 u p := by
  funext a
  refine Fin.ext ?_
  match a with
  | ⟨0, _⟩ => rfl
  | ⟨1, _⟩ => rfl

/-! ## The result is the score -/

/-- The reference's result array is the score array: at (t, i) it is
    Σ_p x[t, i, p] · (Σ_u onehot[t, u] · coef[u, p]) = Σ_p x[t, i, p] · (Σ_u coef[u, p] · onehot[t, u]). -/
theorem result_eq (x0 : (⟨S1024x26x16, .f32⟩ : BufTy).Contents (Elt Ideal))
    (x1 : (⟨S1024x100000, .f32⟩ : BufTy).Contents (Elt Ideal))
    (x2 : (⟨S100000x16, .f32⟩ : BufTy).Contents (Elt Ideal)) :
    val_main_v3 (F := Ideal) x0 x1 x2 = Cert.Score.score x0 x1 x2 := by
  funext j
  obtain ⟨t, i, rfl⟩ : ∃ (t : Fin 1024) (i : Fin 26), j = ix2 t i := ⟨j 0, j 1, eq_ix2 j⟩
  rw [val_main_v3_apply, val_main_v2_apply, idx_v3, Cert.Score.score_apply]
  refine Finset.sum_congr rfl fun p _ => ?_
  rw [val_main_v1_apply, lidx_v2, ridx_v2, idx_v1, val_main_v0_apply]
  refine congrArg (fun z => x0 (ix3 t i p) * z) ?_
  refine Finset.sum_congr rfl fun u _ => ?_
  rw [lidx_v0, ridx_v0, mul_comm]

/-! ## The reference's run, with its result stated as the score -/

/-- On every device, from any memory with zero counters, every weakly fair execution of the reference terminates
    with its result array equal to the score of the three argument arrays' launch contents, and the three
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
        = Cert.Score.score (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((val_main_v3_eq _ _ _).trans (result_eq _ _ _)), (h c).2⟩)
    (Cert.ReferenceIdeal.Value.run (F := Ideal) m ρ)

end Cert.Score.Ref

end
-- ==== Proof.lean ====
/-
  The certificate: a kernel that sweeps the users in 49 blocks against the one-piece reference.

  Both programs compute `out[t, i] = Σ_p x[t, i, p] · Σ_u coef[u, p] · onehot[t, u]`. The kernel transposes its
  three arguments, accumulates `coefᵀ · onehotᵀ` block by block over the users (48 blocks of 2048 and a last one of
  1696) in a 16 × 1024 scratch, contracts the features with it at the last block and transposes the result; the
  reference forms `onehot · coef` in one contraction and contracts the features with it. Over the extended reals
  the two agree for every input: splitting a sum into consecutive blocks and exchanging the factors of a product
  use only associativity and commutativity.

  The frames (both readings of the kernel run to the end, fault nowhere and leave their arguments unchanged) come
  from one proof, written over an arbitrary float instance, of the body's obligation at every block; the reference's
  frame from its run. The idealization rewrote nothing, so `preserves` has no conjunct.
-/
import proofs.«154908_g48799418417398_cont_8to1_c_1139_22_alg».proof.Defs
import proofs.«154908_g48799418417398_cont_8to1_c_1139_22_alg».proof.Proof.Gen.Kernel
import proofs.«154908_g48799418417398_cont_8to1_c_1139_22_alg».proof.Proof.Gen.KernelIdeal
import proofs.«154908_g48799418417398_cont_8to1_c_1139_22_alg».proof.Proof.Gen.ReferenceIdeal
import proofs.«154908_g48799418417398_cont_8to1_c_1139_22_alg».proof.Proof.Gen.Pre_finite_inputs
import proofs.«154908_g48799418417398_cont_8to1_c_1139_22_alg».proof.Proof.SweepFrameBits
import proofs.«154908_g48799418417398_cont_8to1_c_1139_22_alg».proof.Proof.SweepValueIdeal
import proofs.«154908_g48799418417398_cont_8to1_c_1139_22_alg».proof.Proof.RefScore
import Idealize.ShloMosaic.Adequacy
import Idealize.ShloMosaic.Init

noncomputable section

namespace Cert.Proof

open Idealize.ShloMosaic Idealize.ShloMosaic.TcCoe Idealize.SL.Sem

/-- The word-level kernel's frame. -/
theorem frame_k : Cert.frame_Kernel := fun m ρ _ => Cert.Kernel.Sweep.frame (F := Bits) m ρ

/-- The idealized kernel's frame. -/
theorem frame_ki : Cert.frame_KernelIdeal := fun m ρ _ => Cert.KernelIdeal.Sweep.frame (F := Ideal) m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with the score function of those arguments in their result. -/
theorem algebraic : Cert.algebraic_KernelIdeal_ReferenceIdeal := by
  intro m ρ m' ρ' _ hagree
  refine ⟨fun c => Cert.Score.score (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Sweep.run_main (F := Ideal) m ρ)
    · exact ((h c).2 Cert.KernelIdeal.main_v4 (Pipeline.mem_restRefs_of Cert.KernelIdeal.main_v4 (by decide) (by decide))).trans
        (Cert.KernelIdeal.Sweep.result_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Sweep.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Sweep.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Sweep.dats m) c)
  · refine (θ_run Cert.ReferenceIdeal.defs _ _).mono (fun r h c => ⟨?_, (h c).2⟩) (Cert.Score.Ref.run m' ρ')
    rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
